-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x3 : Shape := ⟨3, ![32, 2048, 3]⟩
abbrev S_ : Shape := ⟨0, ![]⟩

class Facts : Prop where
  bcast_S_S32x2048x3 : S_.BroadcastsInDim S32x2048x3 (![] : Fin 0 → Fin S32x2048x3.rank)
  reducesTo_S32x2048x3_S_d0_1_2 : S32x2048x3.ReducesTo [0, 1, 2] S_
  h_S_ : 0 < S_.numel

variable [Facts]

def fn {F : FTy → Type} [FloatOps F] (main_arg0 : FVec F S32x2048x3 .f32) (main_arg1 : FVec F S32x2048x3 .f32) : IVec S_ 1 :=
  let main_v0 : FVec F S32x2048x3 .f32 := Host.absf main_arg0
  let main_cst : FVec F S_ .f32 := constant S_ .f32 0x7F800000#32
  let main_v1 : FVec F S32x2048x3 .f32 := broadcastInDim S32x2048x3 ![] bcast_S_S32x2048x3 main_cst
  let main_v2 : IVec S32x2048x3 1 := cmpf .olt main_v0 main_v1
  let main_c : IVec S_ 1 := constantI S_ 1 1#1
  let main_v3 : IVec S_ 1 := (fun x v => Host.reduce IntOp.andi x v reducesTo_S32x2048x3_S_d0_1_2 h_S_) main_v2 main_c
  let main_v4 : FVec F S32x2048x3 .f32 := Host.absf main_arg1
  let main_cst_0 : FVec F S_ .f32 := constant S_ .f32 0x7F800000#32
  let main_v5 : FVec F S32x2048x3 .f32 := broadcastInDim S32x2048x3 ![] bcast_S_S32x2048x3 main_cst_0
  let main_v6 : IVec S32x2048x3 1 := cmpf .olt main_v4 main_v5
  let main_c_1 : IVec S_ 1 := constantI S_ 1 1#1
  let main_v7 : IVec S_ 1 := (fun x v => Host.reduce IntOp.andi x v reducesTo_S32x2048x3_S_d0_1_2 h_S_) main_v6 main_c_1
  let main_v8 : IVec S_ 1 := andi main_v3 main_v7
  main_v8
-- ==== Kernel.lean ====
abbrev S32x2048x3 : Shape := ⟨3, ![32, 2048, 3]⟩
abbrev S32x8x128 : Shape := ⟨3, ![32, 8, 128]⟩
abbrev S1x2048x3 : Shape := ⟨3, ![1, 2048, 3]⟩
abbrev S1x1024x3 : Shape := ⟨3, ![1, 1024, 3]⟩
abbrev S1x8x128 : Shape := ⟨3, ![1, 8, 128]⟩
abbrev S2048x1 : Shape := ⟨2, ![2048, 1]⟩
abbrev S2048x3 : Shape := ⟨2, ![2048, 3]⟩
abbrev S1024x3 : Shape := ⟨2, ![1024, 3]⟩
abbrev S2048 : Shape := ⟨1, ![2048]⟩
abbrev S1024 : Shape := ⟨1, ![1024]⟩
abbrev S1024x1 : Shape := ⟨2, ![1024, 1]⟩
abbrev S2048x5 : Shape := ⟨2, ![2048, 5]⟩
abbrev S1024x5 : Shape := ⟨2, ![1024, 5]⟩
abbrev S2048x1024 : Shape := ⟨2, ![2048, 1024]⟩
abbrev S1x1024 : Shape := ⟨2, ![1, 1024]⟩
abbrev S1 : Shape := ⟨1, ![1]⟩
abbrev S1x1 : Shape := ⟨2, ![1, 1]⟩
abbrev S8x128 : Shape := ⟨2, ![8, 128]⟩
abbrev S32x1x1 : Shape := ⟨3, ![32, 1, 1]⟩
abbrev S32 : Shape := ⟨1, ![32]⟩
abbrev S_ : Shape := ⟨0, ![]⟩

abbrev nBuf : Space → Nat
  | .hbm => 9
  | .vmem => 7
  | .smem => 0
  | _ => 0

abbrev bufTy : (tb : Table) → Fin (tcTables nBuf tb) → BufTy
  | .hbm, ⟨0, _⟩ => ⟨S32x2048x3, .f32⟩
  | .hbm, ⟨1, _⟩ => ⟨S32x2048x3, .f32⟩
  | .hbm, ⟨2, _⟩ => ⟨S32x8x128, .f32⟩
  | .hbm, ⟨3, _⟩ => ⟨S32x1x1, .f32⟩
  | .hbm, ⟨4, _⟩ => ⟨S32, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1x2048x3, .f32⟩
  | .local _ .vmem, ⟨1, _⟩ => ⟨S1x2048x3, .f32⟩
  | .local _ .vmem, ⟨2, _⟩ => ⟨S1x1024x3, .f32⟩
  | .local _ .vmem, ⟨3, _⟩ => ⟨S1x1024x3, .f32⟩
  | .local _ .vmem, ⟨4, _⟩ => ⟨S1x8x128, .f32⟩
  | .local _ .vmem, ⟨5, _⟩ => ⟨S1x8x128, .f32⟩
  | .local _ .vmem, ⟨6, _⟩ => ⟨S2048x1, .f32⟩
  | _, _ => ⟨S32x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x8x128_S1x8x128_0_0_0 : ∀ a, (![0, 0, 0] : Fin 3 → Nat) a + S1x8x128.size a ≤ S1x8x128.size a
  h_S1x8x128 : 0 < S1x8x128.numel
  inb_S1x2048x3_S1x2048x3_0_0_0 : ∀ a, (![0, 0, 0] : Fin 3 → Nat) a + S1x2048x3.size a ≤ S1x2048x3.size a
  h_S1x2048x3 : 0 < S1x2048x3.numel
  shapeCasts_S1x2048x3_S2048x3 : S1x2048x3.ShapeCasts S2048x3
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  reduces_S2048x3_S2048 : S2048x3.Reduces [1] S2048
  shapeCasts_S2048_S2048x1 : S2048.ShapeCasts S2048x1
  reduces_S1024x3_S1024 : S1024x3.Reduces [1] S1024
  shapeCasts_S1024_S1024x1 : S1024.ShapeCasts S1024x1
  concatenates_S2048x3_S2048x1_S2048x1_S2048x5_d1 : Shape.Concatenates [S2048x3, S2048x1, S2048x1] S2048x5 1
  concatenates_S1024x3_S1024x1_S1024x1_S1024x5_d1 : Shape.Concatenates [S1024x3, S1024x1, S1024x1] S1024x5 1
  reduces_S2048x1024_S2048 : S2048x1024.Reduces [1] S2048
  reduces_S2048x1024_S1024 : S2048x1024.Reduces [0] S1024
  shapeCasts_S1024_S1x1024 : S1024.ShapeCasts S1x1024
  reduces_S1x1024_S1 : S1x1024.Reduces [1] S1
  shapeCasts_S1_S1x1 : S1.ShapeCasts S1x1
  iota_S8x128_d0_w32 : S8x128.Iotas .tc 32 [0]
  iota_S8x128_d1_w32 : S8x128.Iotas .tc 32 [1]
  shapeCasts_S1x8x128_S8x128 : S1x8x128.ShapeCasts S8x128
  shapeCasts_S1x1_S1x1 : S1x1.ShapeCasts S1x1
  broadcasts_S1x1_S8x128 : S1x1.Broadcasts S8x128
  shapeCasts_S8x128_S1x8x128 : S8x128.ShapeCasts S1x8x128
  reduces_S2048x1_S1 : S2048x1.Reduces [0] S1
  slices_S32x8x128_S32x1x1_0_0_0 : S32x8x128.Slices ![0, 0, 0] S32x1x1
  shapeCasts_S32x1x1_S32 : S32x1x1.ShapeCasts S32
  reducesTo_S32_S_d0 : S32.ReducesTo [0] S_
  h_S_ : 0 < S_.numel
  dot_S2048x5_S1024x5_S2048x1024_1_1_0_0_n_n_wf : DotDims.WF S2048x5 S1024x5 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x3.size a ≤ S32x2048x3.size a
  hwx0_0 : ∀ i : grid0.Coords, EltTy.bits .f32 = 32 ∨ (Rect.block (s := S32x2048x3) S1x2048x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x3.size a ≤ S32x2048x3.size a
  hwx0_1 : ∀ i : grid0.Coords, EltTy.bits .f32 = 32 ∨ (Rect.block (s := S32x2048x3) S1x1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S32x8x128.size a
  hwx0_2 : ∀ i : grid0.Coords, EltTy.bits .f32 = 32 ∨ (Rect.block (s := S32x8x128) S1x8x128.size (cc0_transform_2 i) (hinb0_2 i)).WholeWords (EltTy.packing .f32)

variable [Facts₀]

def dot_S2048x5_S1024x5_S2048x1024_1_1_0_0_n_n : DotDims S2048x5 S1024x5 S2048x1024 where
  lhsContracting := [1]
  rhsContracting := [1]
  lhsNonContracting := [0]
  rhsNonContracting := [0]
  lhsBatch := []
  rhsBatch := []
  wf := dot_S2048x5_S1024x5_S2048x1024_1_1_0_0_n_n_wf

abbrev win0_0 : Pipeline.Window sig grid0 :=
  Pipeline.Window.ofSpec (Memref.whole main_arg0) S1x2048x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x2048x3 : Shape := ⟨3, ![32, 2048, 3]⟩
abbrev S_ : Shape := ⟨0, ![]⟩
abbrev S32x2048 : Shape := ⟨2, ![32, 2048]⟩
abbrev S32x2048x2048 : Shape := ⟨3, ![32, 2048, 2048]⟩
abbrev S32x2048x1 : Shape := ⟨3, ![32, 2048, 1]⟩
abbrev S32x1x2048 : Shape := ⟨3, ![32, 1, 2048]⟩

abbrev nBuf : Space → Nat
  | .hbm => 30
  | .vmem => 0
  | .smem => 0
  | _ => 0

abbrev bufTy : (tb : Table) → Fin (tcTables nBuf tb) → BufTy
  | .hbm, ⟨0, _⟩ => ⟨S32x2048x3, .f32⟩
  | .hbm, ⟨1, _⟩ => ⟨S32x2048x3, .f32⟩
  | .hbm, ⟨2, _⟩ => ⟨S32x2048x3, .f32⟩
  | .hbm, ⟨3, _⟩ => ⟨S_, .f32⟩
  | .hbm, ⟨4, _⟩ => ⟨S32x2048, .f32⟩
  | .hbm, ⟨5, _⟩ => ⟨S32x2048x3, .f32⟩
  | .hbm, ⟨6, _⟩ => ⟨S_, .f32⟩
  | .hbm, ⟨7, _⟩ => ⟨S32x2048, .f32⟩
  | .hbm, ⟨8, _⟩ => ⟨S32x2048x2048, .f32⟩
  | .hbm, ⟨9, _⟩ => ⟨S32x2048x1, .f32⟩
  | .hbm, ⟨10, _⟩ => ⟨S32x1x2048, .f32⟩
  | .hbm, ⟨11, _⟩ => ⟨S32x2048x2048, .f32⟩
  | .hbm, ⟨12, _⟩ => ⟨S32x2048x2048, .f32⟩
  | .hbm, ⟨13, _⟩ => ⟨S32x2048x2048, .f32⟩
  | .hbm, ⟨14, _⟩ => ⟨S_, .f32⟩
  | .hbm, ⟨15, _⟩ => ⟨S32x2048x2048, .f32⟩
  | .hbm, ⟨16, _⟩ => ⟨S32x2048x2048, .f32⟩
  | .hbm, ⟨17, _⟩ => ⟨S32x2048x2048, .f32⟩
  | .hbm, ⟨18, _⟩ => ⟨S_, .f32⟩
  | .hbm, ⟨19, _⟩ => ⟨S32x2048x2048, .f32⟩
  | .hbm, ⟨20, _⟩ => ⟨S32x2048x2048, .f32⟩
  | .hbm, ⟨21, _⟩ => ⟨S_, .f32⟩
  | .hbm, ⟨22, _⟩ => ⟨S32x2048, .f32⟩
  | .hbm, ⟨23, _⟩ => ⟨S_, .f32⟩
  | .hbm, ⟨24, _⟩ => ⟨S32x2048, .f32⟩
  | .hbm, ⟨25, _⟩ => ⟨S32x2048, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | _, _ => ⟨S32x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  reducesTo_S32x2048x3_S32x2048_d2 : S32x2048x3.ReducesTo [2] S32x2048
  h_S_ : 0 < S_.numel
  bcast_S32x2048_S32x2048x1_0_1 : S32x2048.BroadcastsInDim S32x2048x1 (![0, 1] : Fin 2 → Fin S32x2048x1.rank)
  bcast_S32x2048_S32x1x2048_0_2 : S32x2048.BroadcastsInDim S32x1x2048 (![0, 2] : Fin 2 → Fin S32x1x2048.rank)
  bcast_S32x2048x1_S32x2048x2048_0_1_2 : S32x2048x1.BroadcastsInDim S32x2048x2048 (![0, 1, 2] : Fin 3 → Fin S32x2048x2048.rank)
  bcast_S32x1x2048_S32x2048x2048_0_1_2 : S32x1x2048.BroadcastsInDim S32x2048x2048 (![0, 1, 2] : Fin 3 → Fin S32x2048x2048.rank)
  bcast_S_S32x2048x2048 : S_.BroadcastsInDim S32x2048x2048 (![] : Fin 0 → Fin S32x2048x2048.rank)
  reducesTo_S32x2048x2048_S32x2048_d1 : S32x2048x2048.ReducesTo [1] S32x2048
  reducesTo_S32x2048x2048_S32x2048_d2 : S32x2048x2048.ReducesTo [2] S32x2048
  reducesTo_S32x2048_S_d0_1 : S32x2048.ReducesTo [0, 1] S_
  dot_S32x2048x3_S32x2048x3_S32x2048x2048_2_2_1_1_0_0_wf : DotDims.WF S32x2048x3 S32x2048x3 S32x2048x2048 [2] [2] [1] [1] [0] [0]

variable [Facts₀]

def dot_S32x2048x3_S32x2048x3_S32x2048x2048_2_2_1_1_0_0 : DotDims S32x2048x3 S32x2048x3 S32x2048x2048 where
  lhsContracting := [2]
  rhsContracting := [2]
  lhsNonContracting := [1]
  rhsNonContracting := [1]
  lhsBatch := [0]
  rhsBatch := [0]
  wf := dot_S32x2048x3_S32x2048x3_S32x2048x2048_2_2_1_1_0_0_wf

class Facts : Prop extends Facts₀ where

variable [Facts]
-- ==== Proof.OutArray.lean ====
/-
  The output array after the region.

  The output window shows block b = t / 2 of the [32, 8, 128] array at both points of batch b and is written back
  after the second one (t = 2b + 1). So entry (b, r, l) of the array ends at entry (0, r, l) of what the output block
  holds after point 2b + 1, and the 32 written blocks tile the array.
-/
import proofs.«126631_j20203526161089_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.OutArray

open Cert.KernelIdeal Cert.KernelIdeal.Gen Idealize.ShloMosaic.ValueIdx

variable {F : FTy → Type} [FloatOps F]
variable (m : (ℓ : Loc nD τ sig) → Buf (Elt F) ℓ)

/-- The output window sits at batch t / 2 and at the origin of the other two axes. -/
theorem idx2 : ∀ t : Fin cfg0.N, win0_2.index t 0 = t.val / 2 ∧ win0_2.index t 1 = 0 ∧ win0_2.index t 2 = 0 :=
  (by decide +kernel : ∀ t : Fin grid0.N, win0_2.index t 0 = t.val / 2 ∧ win0_2.index t 1 = 0 ∧ win0_2.index t 2 = 0)

theorem odd_lt (b : Nat) (hb : b < 32) : 2 * b + 1 < cfg0.N := by
  rw [show cfg0.N = 64 from N_0]; omega

/-- The second point of batch `b`. -/
def oddPt (b : Fin 32) : Fin cfg0.N := ⟨2 * b.val + 1, odd_lt b.val b.isLt⟩

/-- The output array as the region leaves it: entry (b, r, l) is entry (0, r, l) of the output block after the
    second point of batch b. -/
def Gout (c : Dev nD) : Buf (Elt F) ((c : Thread nD τ).loc main_v0) := fun i =>
  (outsAt0 m c (2 * (i 0).val + 1) (odd_lt _ (show (i 0).val < 32 from (i 0).isLt))).1
    (ix3 (0 : Fin 1) (⟨(i 1).val, (i 1).isLt⟩ : Fin 8) (⟨(i 2).val, (i 2).isLt⟩ : Fin 128))

/-- The block after a point depends only on the point's number; read at equal indices it is the same entry. -/
theorem outs_congr (c : Dev nD) {n n' : Nat} (h : n = n') (hn : n < cfg0.N) (hn' : n' < cfg0.N)
    (y y' : S1x8x128.Idx) (hy : y = y') : (outsAt0 m c n hn).1 y = (outsAt0 m c n' hn').1 y' := by
  subst h; subst hy; rfl

/-- What a writing point writes back is its block of `Gout`. -/
theorem flushed_eq (c : Dev nD) (t : Fin cfg0.N) (hf : (cfg0.win 2).flush t = true) :
    (dats m 0 c).flushed 2 t = ((cfg0.win 2).blk t).view.read (Elt F) (Gout m c) := by
  have h1 : t.val % 2 = 1 := (flush0_2 t).mp hf
  obtain ⟨i0, i1, i2⟩ := idx2 t
  show (cfg0.win 2).cut (grid0.coords t) ((dats m 0 c).after 2 t) = _
  rw [after0_2]
  funext y
  rw [View.read_apply]
  show (outsAt0 m c t.val t.isLt).1 y = Gout m c (((cfg0.win 2).blk t).view.emb y)
  unfold Gout
  have hy0 : (y 0).val < 1 := (y 0).isLt
  refine outs_congr m c ?_ _ _ _ _ ?_
  · show t.val = 2 * (win0_2.index t 0 * 1 + 1 * (y 0).val) + 1
    rw [i0]; omega
  · funext a; apply Fin.ext
    match a with
    | ⟨0, _⟩ => show (y 0).val = 0; omega
    | ⟨1, _⟩ => show (y 1).val = win0_2.index t 1 * 8 + 1 * (y 1).val; rw [i1]; omega
    | ⟨2, _⟩ => show (y 2).val = win0_2.index t 2 * 128 + 1 * (y 2).val; rw [i2]; omega

/-- An index of the array is in point `t`'s block iff each coordinate is in the block's range on its axis. -/
theorem mem_blk (t : Fin cfg0.N) (i : S32x8x128.Idx) :
    i ∈ ((cfg0.win 2).blk t).view.set ↔ ∀ a : Fin 3, win0_2.index t a * S1x8x128.size a ≤ (i a).val ∧ (i a).val < win0_2.index t a * S1x8x128.size a + S1x8x128.size a := by
  show i ∈ ((View.whole main_v0).slice (win0_2.rect t)).set ↔ _
  rw [View.set_slice_whole, Rect.mem_set_unit]
  exact Iff.rfl

/-- So the array ends holding `Gout`: the second point of batch (i 0) covers index i. -/
theorem final (c : Dev nD) : (dats m 0 c).arrAt 2 cfg0.N = Gout m c :=
  (dats m 0 c).arrAt_eq_of_cover 2 (Gout m c) (flushed_eq m c) fun i => by
    have hi0 : (i 0).val < 32 := (i 0).isLt
    have hi1 : (i 1).val < 8 := (i 1).isLt
    have hi2 : (i 2).val < 128 := (i 2).isLt
    refine ⟨⟨2 * (i 0).val + 1, odd_lt _ hi0⟩, (flush0_2 _).mpr (by show (2 * (i 0).val + 1) % 2 = 1; omega), ?_⟩
    obtain ⟨e0, e1, e2⟩ := idx2 ⟨2 * (i 0).val + 1, odd_lt _ hi0⟩
    rw [mem_blk]
    intro a
    match a with
    | ⟨0, _⟩ => show win0_2.index _ 0 * 1 ≤ (i 0).val ∧ (i 0).val < win0_2.index _ 0 * 1 + 1; rw [e0]; show (2 * (i 0).val + 1) / 2 * 1 ≤ (i 0).val ∧ (i 0).val < (2 * (i 0).val + 1) / 2 * 1 + 1; omega
    | ⟨1, _⟩ => show win0_2.index _ 1 * 8 ≤ (i 1).val ∧ (i 1).val < win0_2.index _ 1 * 8 + 8; rw [e1]; omega
    | ⟨2, _⟩ => show win0_2.index _ 2 * 128 ≤ (i 2).val ∧ (i 2).val < win0_2.index _ 2 * 128 + 128; rw [e2]; omega

end Cert.KernelIdeal.OutArray
end
-- ==== Proof.KernelRun.lean ====
/-
  The kernel program's run, read: after the region the host lines take the corner (b, 0, 0) of each batch's output
  block, add the 32 corners from zero and divide by 32. Here that tail is named as one function of the output array,
  and the generated frame run is restated with the program's result at that function of `Gout`.
-/
import proofs.«126631_j20203526161089_2_alg».proof.Proof.OutArray
import Idealize.ShloMosaic.Lib.StableHlo.Run

noncomputable section

open Idealize.ShloMosaic Idealize.ShloMosaic.TcCoe Idealize.SL.Sem
open Idealize.ShloMosaic.Pipeline (Dat)

namespace Cert.KernelIdeal.KRun

open Cert.KernelIdeal Cert.KernelIdeal.Gen Cert.KernelIdeal.OutArray Idealize.ShloMosaic.ValueIdx Idealize.ShloMosaic.StableHlo

variable {F : FTy → Type} [FloatOps F]
variable (m : (ℓ : Loc nD τ sig) → Buf (Elt F) ℓ) (ρ : Dev nD → PrngReg)

/-- The host lines after the region, as one function of the output array: the corners, summed from zero, over 32. -/
def tail (o : (⟨S32x8x128, .f32⟩ : BufTy).Contents (Elt F)) : (⟨S_, .f32⟩ : BufTy).Contents (Elt F) :=
  Host.divf (Host.reduceAdd (shapeCast S32 (extractStridedSlice S32x1x1 ![0, 0, 0] o slices_S32x8x128_S32x1x1_0_0_0) shapeCasts_S32x1x1_S32)
    (constant S_ .f32 0x00000000#32) reducesTo_S32_S_d0 h_S_) (constant S_ .f32 0x42000000#32)

theorem v4_rest : main_v4 ∈ Pipeline.restRefs sig (cfgs 0).spec :=
  Pipeline.mem_restRefs_of main_v4 rfl (fun w => by fin_cases w <;> decide)

/-- Every run of the kernel program ends with its result at the tail of `Gout` and its arguments unchanged. -/
theorem run : θ_run defs (onTc (τ := τ) (main (F := F))) ⟨m, fun _ => 0, ρ⟩ fun r => ∀ c : Dev nD,
      r.2.mem ((c : Thread nD τ).loc main_v4) = tail (Gout m c)
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨?_, ?_, ?_⟩) (run_main m ρ)
  · refine ((h c).2 main_v4 v4_rest).trans ?_
    unfold Pipeline.afterTail₀
    show StableHlo.after hostOps1 _ (Proc.devRef .tc main_v4) = _
    after_results
    have e : Pipeline.withArrays (cfgs 0).spec c (V0 m c) (fun w => (dats m 0 c).arrAt w (cfgs 0).N) (Proc.tc.devRef main_v0)
        = Gout m c := (Pipeline.withArrays_arr spec0 launch0.win.arr_inj c _ _ 2).trans (final m c)
    rw [e]
    rfl
  · exact ((h c).1 0).trans (((dats m 0 c).arrAt_in 0 rfl _).trans ((A_eq m c 0).trans (V_main_arg0 m c)))
  · exact ((h c).1 1).trans (((dats m 0 c).arrAt_in 1 rfl _).trans ((A_eq m c 1).trans (V_main_arg1 m c)))

end Cert.KernelIdeal.KRun
end
-- ==== Proof.Pieces.lean ====
/-
  What one grid point of the distance kernel leaves behind, as values.

  A batch is processed in two consecutive grid points, one per half of the columns. Each point holds two running
  quantities across the pair: the [2048,1] vector of row minima so far and the output block whose corner accumulates
  sums. The generated frame proof records, for each of the two kinds of point, the list of stores the body performs;
  here those lists are read back as the values the stores wrote, in terms of the body's named pure functions:
  the first half starts from +∞ and from the zero block, the second half continues from what the first left and
  adds the sum of the finished row minima.
-/
import proofs.«126631_j20203526161089_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- First half (the point resets both accumulators): the output block ends at the zero block plus the sum of the
    half's clamped column minima in its corner. -/
theorem outA (c : Dev nD) (i : grid0.Coords) (a2 : Memref sig .tc .vmem S1x2048x3 .f32) (h2 : a2.IsWhole)
    (a3 : Memref sig .tc .vmem S1x1024x3 .f32) (h3 : a3.IsWhole) (a4 : Memref sig .tc .vmem S1x8x128 .f32) (h4 : a4.IsWhole)
    (a5 : Memref sig .tc .vmem S2048x1 .f32) (h5 : a5.IsWhole) (hc0 : cond0_0 i) (hc1 : ¬cond0_1 i)
    (x0 : Vec F S1x2048x3 .f32) (x1 : Vec F S1x1024x3 .f32) :
    out0_A_2 c i a2 h2 a3 h3 a4 h4 a5 h5 hc0 hc1 x0 x1 = k0_pay2 (k0_pay7 x0 x1) (k0_pay5 (F := F)) := by
  unfold out0_A_2
  rw [View.read_writes_eq_canon _ _ _ (cover0_A_2 c i a2 h2 a3 h3 a4 h4 a5 h5 hc0 hc1 x0 x1)]
  unfold kernelRun0_A
  dsimp only
  sl_unfold_words
  rw [View.canon_cons_unit_zero (S := S1x8x128) hz3, View.readCov_unit_zero (S := S1x8x128) _ hz3]
  simp only [View.readAt_eq_ld, h2.read_unread, h3.read_unread, View.ld_unit_zero (S := S1x2048x3) hz3,
    View.ld_unit_zero (S := S1x1024x3) hz3]

/-- First half: the running row minima end at the minimum of +∞ and the half's clamped row minima. -/
theorem soutA (c : Dev nD) (i : grid0.Coords) (a2 : Memref sig .tc .vmem S1x2048x3 .f32) (h2 : a2.IsWhole)
    (a3 : Memref sig .tc .vmem S1x1024x3 .f32) (h3 : a3.IsWhole) (a4 : Memref sig .tc .vmem S1x8x128 .f32) (h4 : a4.IsWhole)
    (a5 : Memref sig .tc .vmem S2048x1 .f32) (h5 : a5.IsWhole) (hc0 : cond0_0 i) (hc1 : ¬cond0_1 i)
    (x0 : Vec F S1x2048x3 .f32) (x1 : Vec F S1x1024x3 .f32) :
    sout0_A_0 c i a2 h2 a3 h3 a4 h4 a5 h5 hc0 hc1 x0 x1 = k0_pay8 x0 x1 (k0_pay4 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S2048x1) hz2, View.readCov_unit_zero (S := S2048x1) _ hz2]
  simp only [View.readAt_eq_ld, h2.read_unread, h3.read_unread, View.ld_unit_zero (S := S1x2048x3) hz3,
    View.ld_unit_zero (S := S1x1024x3) hz3]

/-- Second half (the point finishes the batch): over an output block `xo` and running row minima `xs` left by the
    point before, the output block ends at `xo` plus the half's column sum plus the sum of the final row minima. -/
theorem outB (c : Dev nD) (i : grid0.Coords) (a2 : Memref sig .tc .vmem S1x2048x3 .f32) (h2 : a2.IsWhole)
    (a3 : Memref sig .tc .vmem S1x1024x3 .f32) (h3 : a3.IsWhole) (a4 : Memref sig .tc .vmem S1x8x128 .f32) (h4 : a4.IsWhole)
    (a5 : Memref sig .tc .vmem S2048x1 .f32) (h5 : a5.IsWhole) (hc0 : ¬cond0_0 i) (hc1 : cond0_1 i)
    (x0 : Vec F S1x2048x3 .f32) (x1 : Vec F S1x1024x3 .f32) (xo : Vec F S1x8x128 .f32) (xs : Vec F S2048x1 .f32) :
    out0_B_2 c i a2 h2 a3 h3 a4 h4 a5 h5 hc0 hc1 x0 x1 xo xs
      = k0_pay3 (k0_pay8 x0 x1 xs) (k0_pay2 (k0_pay7 x0 x1) xo) := by
  unfold out0_B_2
  rw [View.read_writes_eq_canon _ _ _ (cover0_B_2 c i a2 h2 a3 h3 a4 h4 a5 h5 hc0 hc1 x0 x1 xo xs)]
  unfold kernelRun0_B
  dsimp only
  sl_unfold_words
  rw [View.canon_cons_unit_zero (S := S1x8x128) hz3, View.readCov_unit_zero (S := S2048x1) _ hz2,
    View.readCov_unit_zero (S := S1x8x128) _ hz3]
  simp only [View.readAt_eq_ld, h2.read_unread, h3.read_unread, h4.read_unread, h5.read_unread,
    View.ld_unit_zero (S := S1x2048x3) hz3, View.ld_unit_zero (S := S1x1024x3) hz3, View.ld_unit_zero (S := S1x8x128) hz3,
    View.ld_unit_zero (S := S2048x1) hz2]

/-- Second half: the running row minima end at the minimum of `xs` and the half's clamped row minima. -/
theorem soutB (c : Dev nD) (i : grid0.Coords) (a2 : Memref sig .tc .vmem S1x2048x3 .f32) (h2 : a2.IsWhole)
    (a3 : Memref sig .tc .vmem S1x1024x3 .f32) (h3 : a3.IsWhole) (a4 : Memref sig .tc .vmem S1x8x128 .f32) (h4 : a4.IsWhole)
    (a5 : Memref sig .tc .vmem S2048x1 .f32) (h5 : a5.IsWhole) (hc0 : ¬cond0_0 i) (hc1 : cond0_1 i)
    (x0 : Vec F S1x2048x3 .f32) (x1 : Vec F S1x1024x3 .f32) (xo : Vec F S1x8x128 .f32) (xs : Vec F S2048x1 .f32) :
    sout0_B_0 c i a2 h2 a3 h3 a4 h4 a5 h5 hc0 hc1 x0 x1 xo xs = k0_pay8 x0 x1 xs := by
  unfold sout0_B_0
  rw [View.read_writes_eq_canon _ _ _ (scover0_B_0 c i a2 h2 a3 h3 a4 h4 a5 h5 hc0 hc1 x0 x1 xo xs)]
  unfold kernelRun0_B
  dsimp only
  sl_unfold_words
  rw [View.canon_unit_zero hz2]
  simp only [View.readAt_eq_ld, h2.read_unread, h3.read_unread, h5.read_unread,
    View.ld_unit_zero (S := S1x2048x3) hz3, View.ld_unit_zero (S := S1x1024x3) hz3, View.ld_unit_zero (S := S2048x1) hz2]

end Cert.KernelIdeal.Pieces
end
-- ==== Proof.BlockAt.lean ====
/-
  The output block at the second point of a batch's pair of grid points.

  Grid point t = 2b is the first half of batch b and resets the running quantities; point t = 2b + 1 continues from
  what point 2b left. So the output block after an odd point is a fixed function `pairOut` of four input blocks: the
  rows' block at each of the two points and the two column halves.
-/
import proofs.«126631_j20203526161089_2_alg».proof.Proof.Pieces

noncomputable section

open Idealize.ShloMosaic Idealize.ShloMosaic.TcCoe Idealize.SL.Sem
open Idealize.ShloMosaic.Pipeline (Dat)

namespace Cert.KernelIdeal.Block

open Cert.KernelIdeal Cert.KernelIdeal.Gen Cert.KernelIdeal.Pieces

variable {F : FTy → Type} [FloatOps F]
variable (m : (ℓ : Loc nD τ sig) → Buf (Elt F) ℓ)

/-- What the output block holds after the two points of one batch, from the rows' block as each point sees it
    (`X'` at the first point, `X` at the second) and the two halves of the columns (`Y0`, then `Y1`). -/
def pairOut (X X' : Vec F S1x2048x3 .f32) (Y0 Y1 : Vec F S1x1024x3 .f32) : Vec F S1x8x128 .f32 :=
  k0_pay3 (k0_pay8 X Y1 (k0_pay8 X' Y0 (k0_pay4 (F := F))))
    (k0_pay2 (k0_pay7 X Y1) (k0_pay2 (k0_pay7 X' Y0) (k0_pay5 (F := F))))

/-- The point before an odd point. -/
def prev (t : Fin cfg0.N) : Fin cfg0.N := ⟨t.val - 1, Nat.lt_of_le_of_lt (Nat.sub_le _ _) t.isLt⟩

/-- After an odd point the output block is `pairOut` of the blocks at that point and at the even point before it. -/
theorem outsAt_odd (c : Dev nD) (t : Fin cfg0.N) (h1 : t.val % 2 = 1) :
    (outsAt0 m c t.val t.isLt).1
      = pairOut (iblk m c 0 t) (iblk m c 0 (prev t)) (iblk m c 1 (prev t)) (iblk m c 1 t) := by
  have h0 : ¬t.val % 2 = 0 := by omega
  have hp0 : (prev t).val % 2 = 0 := by show (t.val - 1) % 2 = 0; omega
  have hp1 : ¬(prev t).val % 2 = 1 := by show ¬(t.val - 1) % 2 = 1; omega
  rw [outsAt0_B m c t h0 h1]
  dsimp only
  rw [outB]
  have e := outsAt0_A m c (prev t) hp0 hp1
  have e' : outsAt0 m c (t.val - 1) (Nat.lt_of_le_of_lt (Nat.sub_le _ _) t.isLt)
      = (k0_pay2 (k0_pay7 (iblk m c 0 (prev t)) (iblk m c 1 (prev t))) (k0_pay5 (F := F)),
         k0_pay8 (iblk m c 0 (prev t)) (iblk m c 1 (prev t)) (k0_pay4 (F := F))) := by
    refine e.trans ?_
    rw [outA, soutA]
  rw [e']
  rfl

end Cert.KernelIdeal.Block
end
-- ==== Proof.InBlocks.lean ====
/-
  The input blocks read at an index.

  The grid is 32 × 2, point t = 2b + h. The rows' window shows batch b whole at both points; the columns' window shows
  half h of batch b: its entry (0, j, d) is the array's entry (b, 1024·h + j, d).
-/
import proofs.«126631_j20203526161089_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.InBlocks

open Cert.KernelIdeal Cert.KernelIdeal.Gen Idealize.ShloMosaic.ValueIdx

variable {F : FTy → Type} [FloatOps F]
variable (m : (ℓ : Loc nD τ sig) → Buf (Elt F) ℓ)

/-- The rows' window sits at batch t / 2 and at the origin of the other two axes. -/
theorem idx0 : ∀ t : Fin cfg0.N, win0_0.index t 0 = t.val / 2 ∧ win0_0.index t 1 = 0 ∧ win0_0.index t 2 = 0 :=
  (by decide +kernel : ∀ t : Fin grid0.N, win0_0.index t 0 = t.val / 2 ∧ win0_0.index t 1 = 0 ∧ win0_0.index t 2 = 0)

/-- The columns' window sits at batch t / 2, half t % 2. -/
theorem idx1 : ∀ t : Fin cfg0.N, win0_1.index t 0 = t.val / 2 ∧ win0_1.index t 1 = t.val % 2 ∧ win0_1.index t 2 = 0 :=
  (by decide +kernel : ∀ t : Fin grid0.N, win0_1.index t 0 = t.val / 2 ∧ win0_1.index t 1 = t.val % 2 ∧ win0_1.index t 2 = 0)

theorem half_lt (t : Fin cfg0.N) : t.val / 2 < 32 := by
  have : t.val < 64 := lt_of_lt_of_eq t.isLt (show cfg0.N = 64 from N_0); omega

/-- Entry (0, n, d) of the rows' block at point t is entry (t / 2, n, d) of the first argument. -/
theorem rows_apply (c : Dev nD) (t : Fin cfg0.N) (n : Fin 2048) (d : Fin 3) :
    (iblk m c 0 t : Vec F S1x2048x3 .f32) (ix3 0 n d)
      = m ((c : Thread nD τ).loc main_arg0) (ix3 (⟨t.val / 2, half_lt t⟩ : Fin 32) n d) := by
  obtain ⟨i0, i1, i2⟩ := idx0 t
  unfold iblk
  rw [View.read_apply]
  show V m c main_arg0 _ = m (c.tc.loc main_arg0) _
  rw [V_main_arg0]
  congr 1
  funext a
  apply Fin.ext
  match a with
  | ⟨0, _⟩ => show win0_0.index t 0 * 1 + 1 * 0 = t.val / 2; rw [i0]; omega
  | ⟨1, _⟩ => show win0_0.index t 1 * 2048 + 1 * n.val = n.val; rw [i1]; omega
  | ⟨2, _⟩ => show win0_0.index t 2 * 3 + 1 * d.val = d.val; rw [i2]; omega

theorem col_lt (t : Fin cfg0.N) (j : Fin 1024) : 1024 * (t.val % 2) + j.val < 2048 := by
  have := j.isLt; omega

/-- Entry (0, j, d) of the columns' block at point t is entry (t / 2, 1024·(t % 2) + j, d) of the second argument. -/
theorem cols_apply (c : Dev nD) (t : Fin cfg0.N) (j : Fin 1024) (d : Fin 3) :
    (iblk m c 1 t : Vec F S1x1024x3 .f32) (ix3 0 j d)
      = m ((c : Thread nD τ).loc main_arg1)
          (ix3 (⟨t.val / 2, half_lt t⟩ : Fin 32) (⟨1024 * (t.val % 2) + j.val, col_lt t j⟩ : Fin 2048) d) := by
  obtain ⟨i0, i1, i2⟩ := idx1 t
  unfold iblk
  rw [View.read_apply]
  show V m c main_arg1 _ = m (c.tc.loc main_arg1) _
  rw [V_main_arg1]
  congr 1
  funext a
  apply Fin.ext
  match a with
  | ⟨0, _⟩ => show win0_1.index t 0 * 1 + 1 * 0 = t.val / 2; rw [i0]; omega
  | ⟨1, _⟩ => show win0_1.index t 1 * 1024 + 1 * j.val = 1024 * (t.val % 2) + j.val; rw [i1]; omega
  | ⟨2, _⟩ => show win0_1.index t 2 * 3 + 1 * d.val = d.val; rw [i2]; omega

end Cert.KernelIdeal.InBlocks
end
-- ==== Proof.Spec.lean ====
/-
  The mathematics of the claim, stated over plain functions with no program in sight.

  Two point clouds `x`, `y` of 32 batches of 2048 points in three coordinates. For a batch `b`, point `n` of `x` and
  point `m` of `y`, the squared distance is written two ways:
    * `distR`: |x|² + |y|² - 2·⟨x, y⟩, clamped below at 0 (one side clamps every entry before taking minima);
    * `distK`: the inner product of the augmented rows (x, 1, |x|²) and (-2·y, |y|², 1) (the other side clamps the
      minima, takes the minima over the two halves of `m` one after the other, and sums the pieces in another grouping).
  `refTotal` is the sum over batches and positions j of (min over n of distR(n, j)) + (min over m of distR(j, m));
  `kerTotal` the sum over batches of the column minima of the first half, of the second half, and of the row minima
  taken half by half. The two totals are equal when every coordinate is a real number (`Totals.lean`).
-/
import Idealize.ShloMosaic.PureOps.Ideal
import Idealize.ShloMosaic.Lib.ValueIdx

noncomputable section

open scoped BigOperators

namespace Cert.Spec

open Idealize.ShloMosaic Idealize.ShloMosaic.ValueIdx

/-- A batch of point clouds: 32 batches of 2048 points with 3 coordinates, each an extended real. -/
abbrev Cloud := (⟨3, ![32, 2048, 3]⟩ : Shape).Idx → EReal

/-- The squared norm of point `n` of batch `b`. -/
def sqn (x : Cloud) (b : Fin 32) (n : Fin 2048) : EReal := ∑ d : Fin 3, x (ix3 b n d) * x (ix3 b n d)

/-- The inner product of point `n` of `x` and point `m` of `y` in batch `b`. -/
def dotp (x y : Cloud) (b : Fin 32) (n m : Fin 2048) : EReal := ∑ d : Fin 3, x (ix3 b n d) * y (ix3 b m d)

/-- The minimum of a finite family, folded from `⊤`. -/
def minOver {n : Nat} (f : Fin n → EReal) : EReal := (Finset.univ : Finset (Fin n)).fold min ⊤ f

/-- The squared distance |x|² + |y|² - 2⟨x, y⟩ clamped below at zero. -/
def distR (x y : Cloud) (b : Fin 32) (n m : Fin 2048) : EReal :=
  max (sqn x b n + sqn y b m - 2 * dotp x y b n m) 0

/-- The sum over batches and positions of the two nearest-neighbour squared distances. -/
def refTotal (x y : Cloud) : EReal :=
  ∑ b : Fin 32, ∑ j : Fin 2048, (minOver (fun n => distR x y b n j) + minOver (fun m => distR x y b j m))

/-- The inner product of the augmented rows (X n, 1, |X n|²) and (-2·Y j, |Y j|², 1), for any two families of points
    given by coordinates (a whole cloud's batch, or one block of it). -/
def bdist {A B : Nat} (X : Fin A → Fin 3 → EReal) (Y : Fin B → Fin 3 → EReal) (n : Fin A) (j : Fin B) : EReal :=
  ∑ k : Fin 5, (![X n 0, X n 1, X n 2, 1, ∑ d : Fin 3, X n d * X n d] : Fin 5 → EReal) k
    * (![-2 * Y j 0, -2 * Y j 1, -2 * Y j 2, ∑ d : Fin 3, Y j d * Y j d, 1] : Fin 5 → EReal) k

/-- The squared distance as the inner product of the augmented rows (unclamped). -/
def distK (x y : Cloud) (b : Fin 32) (n m : Fin 2048) : EReal :=
  bdist (fun n d => x (ix3 b n d)) (fun m d => y (ix3 b m d)) n m

/-- Position `j` of the first half of the 2048 points. -/
def lo (j : Fin 1024) : Fin 2048 := ⟨j.val, by omega⟩
/-- Position `j` of the second half. -/
def hi (j : Fin 1024) : Fin 2048 := ⟨1024 + j.val, by omega⟩

/-- Column `m`: the minimum over all `n`, then clamped. -/
def colPart (x y : Cloud) (b : Fin 32) (m : Fin 2048) : EReal := max (minOver fun n => distK x y b n m) 0

/-- Row `n` over one half of the columns: the minimum over that half, then clamped. -/
def rowPart (x y : Cloud) (b : Fin 32) (n : Fin 2048) (half : Fin 1024 → Fin 2048) : EReal :=
  max (minOver fun j => distK x y b n (half j)) 0

/-- One batch's contribution: the clamped column minima of the first half, of the second half, and the row minima
    accumulated half by half from `⊤`, added in this grouping. -/
def perBatch (x y : Cloud) (b : Fin 32) : EReal :=
  ((0 + ∑ j : Fin 1024, colPart x y b (lo j)) + ∑ j : Fin 1024, colPart x y b (hi j))
    + ∑ n : Fin 2048, min (min ⊤ (rowPart x y b n lo)) (rowPart x y b n hi)

/-- The sum of the batches' contributions. -/
def kerTotal (x y : Cloud) : EReal := ∑ b : Fin 32, perBatch x y b

/-- The common last step: the total divided by the number of batches, the divisor left as its f32 pattern. -/
def finish (t : EReal) : EReal := Ideal.div t (Ideal.ofBits .f32 0x42000000#32)

end Cert.Spec

end
-- ==== Proof.LibAttentionDots.lean ====
/-
  Contraction sums of the matrix products of an attention layer, for any sizes, on the extended reals.

  * A rank-2 product whose right operand is contracted on its LAST axis, `[A,K] × [B,K] → [A,B]`: at output index
    (p, q) the sum over k of L (p, k) * R (q, k); with it a matmul into the zero accumulator and a host dot_general.
  * A projection `[B,S,D] × [N,D] → [B,S,N]` (einsum `bsd,nd→bsn`): at (b, s, n) the sum over k of
    L (b, s, k) * R (n, k).
  * The scores `[B,H,Q,D] × [B,H,K,D] → [B,H,Q,K]` with batch axes 0 and 1 (einsum `bhqd,bhkd→bhqk`): at
    (b, h, q, k) the sum over d of L (b, h, q, d) * R (b, h, k, d).
  * The weighted values `[B,H,Q,K] × [B,H,K,D] → [B,H,Q,D]` with batch axes 0 and 1 (einsum `bhqk,bhkd→bhqd`): at
    (b, h, q, d) the sum over k of L (b, h, q, k) * R (b, h, k, d).

  Each takes the dimension numbers as a record with six list hypotheses (closed by `rfl` on a printed record).
-/
import Idealize.ShloMosaic.PureOps.Ideal.Laws
import Idealize.ShloMosaic.Lib.ValueIdx

noncomputable section

open scoped BigOperators

namespace Cert.Lib.AttentionDots

open Idealize.ShloMosaic Idealize.ShloMosaic.ValueIdx

/-! ## Rank 2, the right operand contracted on its last axis -/

theorem trhs_idx {A K B : Nat} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = []) :
    ∃ (hr : d.contr.rank = 1) (hs : d.contr.size ⟨0, by omega⟩ = K), ∀ (p : Fin A) (q : Fin B) (k : Fin K),
      d.lhsIdx (ix2 p q) ((contrEquiv1 d K hr hs).symm k) = ix2 p k ∧
      d.rhsIdx (ix2 p q) ((contrEquiv1 d K hr hs).symm k) = ix2 q k := by
  obtain ⟨lc, rc, ln, rn, lb, rb, wf⟩ := d
  simp only at hlc hrc hln hrn hlb hrb
  subst hlc hrc hln hrn hlb hrb
  refine ⟨rfl, rfl, fun p q k => ⟨?_, ?_⟩⟩
  · funext a
    match a with
    | ⟨0, _⟩ => exact Fin.ext rfl
    | ⟨1, _⟩ => exact Fin.ext rfl
  · funext a
    match a with
    | ⟨0, _⟩ => exact Fin.ext rfl
    | ⟨1, _⟩ => exact Fin.ext rfl

/-- The contraction sum at (p, q): the sum over k of L (p, k) * R (q, k). -/
theorem trhs_sum {A K B : Nat} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (L : (⟨2, ![A, K]⟩ : Shape).Idx → EReal) (R : (⟨2, ![B, K]⟩ : Shape).Idx → EReal) (p : Fin A) (q : Fin B) :
    ∑ κ : d.contr.Idx, L (d.lhsIdx (ix2 p q) κ) * R (d.rhsIdx (ix2 p q) κ) = ∑ k : Fin K, L (ix2 p k) * R (ix2 q k) := by
  obtain ⟨hr, hs, h⟩ := trhs_idx d hlc hrc hln hrn hlb hrb
  rw [← Equiv.sum_comp (contrEquiv1 d K hr hs).symm]
  exact Finset.sum_congr rfl fun k _ => by rw [(h p q k).1, (h p q k).2]

/-- A matmul of these dimension numbers into the zero accumulator, read at (p, q). -/
theorem matmul_zero_trhs {A K B : Nat} {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (lhs : FVec Ideal ⟨2, ![A, K]⟩ φ₁) (rhs : FVec Ideal ⟨2, ![B, K]⟩ φ₂)
    (p : Fin A) (q : Fin B) :
    FloatOps.matmul d prec lhs rhs (constant ⟨2, ![A, B]⟩ .f32 0x00000000#32) (ix2 p q)
      = ∑ k : Fin K, lhs (ix2 p k) * rhs (ix2 q k) :=
  (Ideal.matmul_constant_zero_apply d prec lhs rhs (ix2 p q)).trans (trhs_sum d hlc hrc hln hrn hlb hrb lhs rhs p q)

/-- A host dot_general of these dimension numbers, read at (p, q). -/
theorem dotGeneral_trhs {A K B : Nat} {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (sched : HostSchedule) (lhs : FVec Ideal ⟨2, ![A, K]⟩ φ₁)
    (rhs : FVec Ideal ⟨2, ![B, K]⟩ φ₂) (p : Fin A) (q : Fin B) :
    FloatOps.dotGeneral d prec sched lhs rhs (ix2 p q) = ∑ k : Fin K, lhs (ix2 p k) * rhs (ix2 q k) :=
  (Ideal.dotGeneral_apply d prec sched lhs rhs (ix2 p q)).trans (trhs_sum d hlc hrc hln hrn hlb hrb lhs rhs p q)

/-! ## The projection `bsd,nd→bsn` -/

theorem proj_idx {B S D N : Nat} (d : DotDims ⟨3, ![B, S, D]⟩ ⟨2, ![N, D]⟩ ⟨3, ![B, S, N]⟩)
    (hlc : d.lhsContracting = [2]) (hrc : d.rhsContracting = [1]) (hln : d.lhsNonContracting = [0, 1])
    (hrn : d.rhsNonContracting = [0]) (hlb : d.lhsBatch = []) (hrb : d.rhsBatch = []) :
    ∃ (hr : d.contr.rank = 1) (hs : d.contr.size ⟨0, by omega⟩ = D), ∀ (b : Fin B) (s : Fin S) (n : Fin N) (k : Fin D),
      d.lhsIdx (ix3 b s n) ((contrEquiv1 d D hr hs).symm k) = ix3 b s k ∧
      d.rhsIdx (ix3 b s n) ((contrEquiv1 d D hr hs).symm k) = ix2 n k := by
  obtain ⟨lc, rc, ln, rn, lb, rb, wf⟩ := d
  simp only at hlc hrc hln hrn hlb hrb
  subst hlc hrc hln hrn hlb hrb
  refine ⟨rfl, rfl, fun b s n k => ⟨?_, ?_⟩⟩
  · funext a
    match a with
    | ⟨0, _⟩ => exact Fin.ext rfl
    | ⟨1, _⟩ => exact Fin.ext rfl
    | ⟨2, _⟩ => exact Fin.ext rfl
  · funext a
    match a with
    | ⟨0, _⟩ => exact Fin.ext rfl
    | ⟨1, _⟩ => exact Fin.ext rfl

/-- A host dot_general `bsd,nd→bsn`, read at (b, s, n): the sum over k of L (b, s, k) * R (n, k). -/
theorem dotGeneral_proj {B S D N : Nat} {φ₁ φ₂ : FTy} (d : DotDims ⟨3, ![B, S, D]⟩ ⟨2, ![N, D]⟩ ⟨3, ![B, S, N]⟩)
    (hlc : d.lhsContracting = [2]) (hrc : d.rhsContracting = [1]) (hln : d.lhsNonContracting = [0, 1])
    (hrn : d.rhsNonContracting = [0]) (hlb : d.lhsBatch = []) (hrb : d.rhsBatch = [])
    (prec : Option ContractPrecision) (sched : HostSchedule) (lhs : FVec Ideal ⟨3, ![B, S, D]⟩ φ₁)
    (rhs : FVec Ideal ⟨2, ![N, D]⟩ φ₂) (b : Fin B) (s : Fin S) (n : Fin N) :
    FloatOps.dotGeneral d prec sched lhs rhs (ix3 b s n) = ∑ k : Fin D, lhs (ix3 b s k) * rhs (ix2 n k) := by
  obtain ⟨hr, hs, h⟩ := proj_idx d hlc hrc hln hrn hlb hrb
  refine (Ideal.dotGeneral_apply d prec sched lhs rhs (ix3 b s n)).trans ?_
  rw [← Equiv.sum_comp (contrEquiv1 d D hr hs).symm]
  exact Finset.sum_congr rfl fun k _ => by rw [(h b s n k).1, (h b s n k).2]

/-! ## The scores `bhqd,bhkd→bhqk` -/

theorem scores_idx {B H Q K D : Nat} (d : DotDims ⟨4, ![B, H, Q, D]⟩ ⟨4, ![B, H, K, D]⟩ ⟨4, ![B, H, Q, K]⟩)
    (hlc : d.lhsContracting = [3]) (hrc : d.rhsContracting = [3]) (hln : d.lhsNonContracting = [2])
    (hrn : d.rhsNonContracting = [2]) (hlb : d.lhsBatch = [0, 1]) (hrb : d.rhsBatch = [0, 1]) :
    ∃ (hr : d.contr.rank = 1) (hs : d.contr.size ⟨0, by omega⟩ = D),
      ∀ (b : Fin B) (h : Fin H) (q : Fin Q) (k : Fin K) (e : Fin D),
      d.lhsIdx (ix4 b h q k) ((contrEquiv1 d D hr hs).symm e) = ix4 b h q e ∧
      d.rhsIdx (ix4 b h q k) ((contrEquiv1 d D hr hs).symm e) = ix4 b h k e := by
  obtain ⟨lc, rc, ln, rn, lb, rb, wf⟩ := d
  simp only at hlc hrc hln hrn hlb hrb
  subst hlc hrc hln hrn hlb hrb
  refine ⟨rfl, rfl, fun b h q k e => ⟨?_, ?_⟩⟩
  · funext a
    match a with
    | ⟨0, _⟩ => exact Fin.ext rfl
    | ⟨1, _⟩ => exact Fin.ext rfl
    | ⟨2, _⟩ => exact Fin.ext rfl
    | ⟨3, _⟩ => exact Fin.ext rfl
  · funext a
    match a with
    | ⟨0, _⟩ => exact Fin.ext rfl
    | ⟨1, _⟩ => exact Fin.ext rfl
    | ⟨2, _⟩ => exact Fin.ext rfl
    | ⟨3, _⟩ => exact Fin.ext rfl

/-- A host dot_general `bhqd,bhkd→bhqk`, read at (b, h, q, k): the sum over e of L (b, h, q, e) * R (b, h, k, e). -/
theorem dotGeneral_scores {B H Q K D : Nat} {φ₁ φ₂ : FTy}
    (d : DotDims ⟨4, ![B, H, Q, D]⟩ ⟨4, ![B, H, K, D]⟩ ⟨4, ![B, H, Q, K]⟩)
    (hlc : d.lhsContracting = [3]) (hrc : d.rhsContracting = [3]) (hln : d.lhsNonContracting = [2])
    (hrn : d.rhsNonContracting = [2]) (hlb : d.lhsBatch = [0, 1]) (hrb : d.rhsBatch = [0, 1])
    (prec : Option ContractPrecision) (sched : HostSchedule) (lhs : FVec Ideal ⟨4, ![B, H, Q, D]⟩ φ₁)
    (rhs : FVec Ideal ⟨4, ![B, H, K, D]⟩ φ₂) (b : Fin B) (h : Fin H) (q : Fin Q) (k : Fin K) :
    FloatOps.dotGeneral d prec sched lhs rhs (ix4 b h q k) = ∑ e : Fin D, lhs (ix4 b h q e) * rhs (ix4 b h k e) := by
  obtain ⟨hr, hs, hx⟩ := scores_idx d hlc hrc hln hrn hlb hrb
  refine (Ideal.dotGeneral_apply d prec sched lhs rhs (ix4 b h q k)).trans ?_
  rw [← Equiv.sum_comp (contrEquiv1 d D hr hs).symm]
  exact Finset.sum_congr rfl fun e _ => by rw [(hx b h q k e).1, (hx b h q k e).2]

/-! ## The weighted values `bhqk,bhkd→bhqd` -/

theorem values_idx {B H Q K D : Nat} (d : DotDims ⟨4, ![B, H, Q, K]⟩ ⟨4, ![B, H, K, D]⟩ ⟨4, ![B, H, Q, D]⟩)
    (hlc : d.lhsContracting = [3]) (hrc : d.rhsContracting = [2]) (hln : d.lhsNonContracting = [2])
    (hrn : d.rhsNonContracting = [3]) (hlb : d.lhsBatch = [0, 1]) (hrb : d.rhsBatch = [0, 1]) :
    ∃ (hr : d.contr.rank = 1) (hs : d.contr.size ⟨0, by omega⟩ = K),
      ∀ (b : Fin B) (h : Fin H) (q : Fin Q) (e : Fin D) (k : Fin K),
      d.lhsIdx (ix4 b h q e) ((contrEquiv1 d K hr hs).symm k) = ix4 b h q k ∧
      d.rhsIdx (ix4 b h q e) ((contrEquiv1 d K hr hs).symm k) = ix4 b h k e := by
  obtain ⟨lc, rc, ln, rn, lb, rb, wf⟩ := d
  simp only at hlc hrc hln hrn hlb hrb
  subst hlc hrc hln hrn hlb hrb
  refine ⟨rfl, rfl, fun b h q e k => ⟨?_, ?_⟩⟩
  · funext a
    match a with
    | ⟨0, _⟩ => exact Fin.ext rfl
    | ⟨1, _⟩ => exact Fin.ext rfl
    | ⟨2, _⟩ => exact Fin.ext rfl
    | ⟨3, _⟩ => exact Fin.ext rfl
  · funext a
    match a with
    | ⟨0, _⟩ => exact Fin.ext rfl
    | ⟨1, _⟩ => exact Fin.ext rfl
    | ⟨2, _⟩ => exact Fin.ext rfl
    | ⟨3, _⟩ => exact Fin.ext rfl

/-- A host dot_general `bhqk,bhkd→bhqd`, read at (b, h, q, e): the sum over k of L (b, h, q, k) * R (b, h, k, e). -/
theorem dotGeneral_values {B H Q K D : Nat} {φ₁ φ₂ : FTy}
    (d : DotDims ⟨4, ![B, H, Q, K]⟩ ⟨4, ![B, H, K, D]⟩ ⟨4, ![B, H, Q, D]⟩)
    (hlc : d.lhsContracting = [3]) (hrc : d.rhsContracting = [2]) (hln : d.lhsNonContracting = [2])
    (hrn : d.rhsNonContracting = [3]) (hlb : d.lhsBatch = [0, 1]) (hrb : d.rhsBatch = [0, 1])
    (prec : Option ContractPrecision) (sched : HostSchedule) (lhs : FVec Ideal ⟨4, ![B, H, Q, K]⟩ φ₁)
    (rhs : FVec Ideal ⟨4, ![B, H, K, D]⟩ φ₂) (b : Fin B) (h : Fin H) (q : Fin Q) (e : Fin D) :
    FloatOps.dotGeneral d prec sched lhs rhs (ix4 b h q e) = ∑ k : Fin K, lhs (ix4 b h q k) * rhs (ix4 b h k e) := by
  obtain ⟨hr, hs, hx⟩ := values_idx d hlc hrc hln hrn hlb hrb
  refine (Ideal.dotGeneral_apply d prec sched lhs rhs (ix4 b h q e)).trans ?_
  rw [← Equiv.sum_comp (contrEquiv1 d K hr hs).symm]
  exact Finset.sum_congr rfl fun k _ => by rw [(hx b h q e k).1, (hx b h q e k).2]

/-! ## The same, spelled as programs print them (`matmul`, `Host.dotGeneral`): the forms a rewrite finds -/

theorem matmul_trhs {A K B : Nat} {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (lhs : FVec Ideal ⟨2, ![A, K]⟩ φ₁) (rhs : FVec Ideal ⟨2, ![B, K]⟩ φ₂)
    (p : Fin A) (q : Fin B) :
    matmul d prec lhs rhs (constant ⟨2, ![A, B]⟩ .f32 0x00000000#32) (ix2 p q) = ∑ k : Fin K, lhs (ix2 p k) * rhs (ix2 q k) :=
  matmul_zero_trhs d hlc hrc hln hrn hlb hrb prec lhs rhs p q

theorem hostDot_trhs {A K B : Nat} {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (lhs : FVec Ideal ⟨2, ![A, K]⟩ φ₁) (rhs : FVec Ideal ⟨2, ![B, K]⟩ φ₂)
    (p : Fin A) (q : Fin B) :
    Host.dotGeneral d prec lhs rhs (ix2 p q) = ∑ k : Fin K, lhs (ix2 p k) * rhs (ix2 q k) :=
  dotGeneral_trhs d hlc hrc hln hrn hlb hrb prec .single lhs rhs p q

theorem hostDot_proj {B S D N : Nat} {φ₁ φ₂ : FTy} (d : DotDims ⟨3, ![B, S, D]⟩ ⟨2, ![N, D]⟩ ⟨3, ![B, S, N]⟩)
    (hlc : d.lhsContracting = [2]) (hrc : d.rhsContracting = [1]) (hln : d.lhsNonContracting = [0, 1])
    (hrn : d.rhsNonContracting = [0]) (hlb : d.lhsBatch = []) (hrb : d.rhsBatch = [])
    (prec : Option ContractPrecision) (lhs : FVec Ideal ⟨3, ![B, S, D]⟩ φ₁) (rhs : FVec Ideal ⟨2, ![N, D]⟩ φ₂)
    (b : Fin B) (s : Fin S) (n : Fin N) :
    Host.dotGeneral d prec lhs rhs (ix3 b s n) = ∑ k : Fin D, lhs (ix3 b s k) * rhs (ix2 n k) :=
  dotGeneral_proj d hlc hrc hln hrn hlb hrb prec .single lhs rhs b s n

theorem hostDot_scores {B H Q K D : Nat} {φ₁ φ₂ : FTy}
    (d : DotDims ⟨4, ![B, H, Q, D]⟩ ⟨4, ![B, H, K, D]⟩ ⟨4, ![B, H, Q, K]⟩)
    (hlc : d.lhsContracting = [3]) (hrc : d.rhsContracting = [3]) (hln : d.lhsNonContracting = [2])
    (hrn : d.rhsNonContracting = [2]) (hlb : d.lhsBatch = [0, 1]) (hrb : d.rhsBatch = [0, 1])
    (prec : Option ContractPrecision) (lhs : FVec Ideal ⟨4, ![B, H, Q, D]⟩ φ₁) (rhs : FVec Ideal ⟨4, ![B, H, K, D]⟩ φ₂)
    (b : Fin B) (h : Fin H) (q : Fin Q) (k : Fin K) :
    Host.dotGeneral d prec lhs rhs (ix4 b h q k) = ∑ e : Fin D, lhs (ix4 b h q e) * rhs (ix4 b h k e) :=
  dotGeneral_scores d hlc hrc hln hrn hlb hrb prec .single lhs rhs b h q k

theorem hostDot_values {B H Q K D : Nat} {φ₁ φ₂ : FTy}
    (d : DotDims ⟨4, ![B, H, Q, K]⟩ ⟨4, ![B, H, K, D]⟩ ⟨4, ![B, H, Q, D]⟩)
    (hlc : d.lhsContracting = [3]) (hrc : d.rhsContracting = [2]) (hln : d.lhsNonContracting = [2])
    (hrn : d.rhsNonContracting = [3]) (hlb : d.lhsBatch = [0, 1]) (hrb : d.rhsBatch = [0, 1])
    (prec : Option ContractPrecision) (lhs : FVec Ideal ⟨4, ![B, H, Q, K]⟩ φ₁) (rhs : FVec Ideal ⟨4, ![B, H, K, D]⟩ φ₂)
    (b : Fin B) (h : Fin H) (q : Fin Q) (e : Fin D) :
    Host.dotGeneral d prec lhs rhs (ix4 b h q e) = ∑ k : Fin K, lhs (ix4 b h q k) * rhs (ix4 b h k e) :=
  dotGeneral_values d hlc hrc hln hrn hlb hrb prec .single lhs rhs b h q e

end Cert.Lib.AttentionDots

end
-- ==== Proof.LibLastAxis.lean ====
/-
  Reductions along the LAST axis, on the extended reals, for any sizes and ranks 2, 3 and 4.

  * Over a result index, the source index with coordinate k on the reduced (last) axis appends k.
  * The host's sum from an initial value is that value plus the finite sum along the axis; a kernel's lane sum from the
    zero word is the finite sum.
  * The host's maximum and a kernel's lane maximum are the fold of max, from the initial value, along the axis; from
    minus infinity, one more `max` with minus infinity changes nothing.
-/
import Idealize.ShloMosaic.Lib.ValueIdx
import Idealize.ShloMosaic.Lib.Pipeline.Value
import Idealize.ShloMosaic.PureOps.Ideal.Laws

noncomputable section

open scoped BigOperators

namespace Cert.Lib.LastAxis

open Idealize.ShloMosaic Idealize.ShloMosaic.ValueIdx

/-! ## The source index over a result index -/

theorem lift_last2 {a b : ℕ} (h : (⟨2, ![a, b]⟩ : Shape).Reduces [(1 : Fin 2)] ⟨1, ![a]⟩) (p : Fin a)
    (k : Fin ((⟨2, ![a, b]⟩ : Shape).size 1)) : h.lift (ix1 p) k = ix2 p (k : Fin b) := by
  funext c; apply Fin.ext; rw [h.lift_val]
  match c with
  | ⟨0, _⟩ => rfl
  | ⟨1, _⟩ => rfl

theorem lift_last3 {a b c : ℕ} (h : (⟨3, ![a, b, c]⟩ : Shape).Reduces [(2 : Fin 3)] ⟨2, ![a, b]⟩) (p : Fin a) (q : Fin b)
    (k : Fin ((⟨3, ![a, b, c]⟩ : Shape).size 2)) : h.lift (ix2 p q) k = ix3 p q (k : Fin c) := by
  funext x; apply Fin.ext; rw [h.lift_val]
  match x with
  | ⟨0, _⟩ => rfl
  | ⟨1, _⟩ => rfl
  | ⟨2, _⟩ => rfl

theorem lift_last4 {a b c d : ℕ} (h : (⟨4, ![a, b, c, d]⟩ : Shape).Reduces [(3 : Fin 4)] ⟨3, ![a, b, c]⟩) (p : Fin a) (q : Fin b)
    (r : Fin c) (k : Fin ((⟨4, ![a, b, c, d]⟩ : Shape).size 3)) : h.lift (ix3 p q r) k = ix4 p q r (k : Fin d) := by
  funext x; apply Fin.ext; rw [h.lift_val]
  match x with
  | ⟨0, _⟩ => rfl
  | ⟨1, _⟩ => rfl
  | ⟨2, _⟩ => rfl
  | ⟨3, _⟩ => rfl

/-! ## Sums -/

/-- The host's sum of a rank-3 array along its last axis, at (p, q). -/
theorem hostSum_last3 {a b c : ℕ} {φ : FTy} (x : FVec Ideal ⟨3, ![a, b, c]⟩ φ) (v : (⟨0, ![]⟩ : Shape).Idx → Ideal φ)
    (h' : (⟨3, ![a, b, c]⟩ : Shape).ReducesTo [(2 : Fin 3)] ⟨2, ![a, b]⟩)
    (h : (⟨3, ![a, b, c]⟩ : Shape).Reduces [(2 : Fin 3)] ⟨2, ![a, b]⟩) (hu : 0 < (⟨0, ![]⟩ : Shape).numel) (p : Fin a) (q : Fin b) :
    Host.reduceAdd x v h' hu (ix2 p q) = v ix0 + ∑ k : Fin c, x (ix3 p q k) := by
  show Ideal.hostReduceAdd h' x (v (Shape.Idx.first hu)) (ix2 p q) = _
  rw [Ideal.hostReduceAdd_single h' h, eq_ix0 (Shape.Idx.first hu)]
  exact congrArg (v ix0 + ·) (Finset.sum_congr rfl fun k _ => congrArg x (lift_last3 h p q k))

/-- The host's sum of a rank-4 array along its last axis, at (p, q, r). -/
theorem hostSum_last4 {a b c d : ℕ} {φ : FTy} (x : FVec Ideal ⟨4, ![a, b, c, d]⟩ φ) (v : (⟨0, ![]⟩ : Shape).Idx → Ideal φ)
    (h' : (⟨4, ![a, b, c, d]⟩ : Shape).ReducesTo [(3 : Fin 4)] ⟨3, ![a, b, c]⟩)
    (h : (⟨4, ![a, b, c, d]⟩ : Shape).Reduces [(3 : Fin 4)] ⟨3, ![a, b, c]⟩) (hu : 0 < (⟨0, ![]⟩ : Shape).numel)
    (p : Fin a) (q : Fin b) (r : Fin c) :
    Host.reduceAdd x v h' hu (ix3 p q r) = v ix0 + ∑ k : Fin d, x (ix4 p q r k) := by
  show Ideal.hostReduceAdd h' x (v (Shape.Idx.first hu)) (ix3 p q r) = _
  rw [Ideal.hostReduceAdd_single h' h, eq_ix0 (Shape.Idx.first hu)]
  exact congrArg (v ix0 + ·) (Finset.sum_congr rfl fun k _ => congrArg x (lift_last4 h p q r k))

/-- A kernel's lane sum of a matrix along its last axis from the neutral word, at row p. -/
theorem laneSum_last2 {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (p : Fin a) :
    multiReduction .add [(1 : Fin 2)] ⟨1, ![a]⟩ src acc h hφ hacc (ix1 p) = ∑ k : Fin b, src (ix2 p k) :=
  (Ideal.multiReduction_add_single src acc h hφ hacc (ix1 p)).trans
    (Finset.sum_congr rfl fun k _ => congrArg src (lift_last2 h p k))

/-! ## Maxima -/

/-- Minus infinity is neutral for `max` on the extended reals. -/
theorem max_bot_left (y : EReal) : max (⊥ : EReal) y = y := max_eq_right bot_le

/-- The host's maximum of a rank-4 array along its last axis, at (p, q, r): the fold of max from the initial value. -/
theorem hostMax_last4 {a b c d : ℕ} {φ : FTy} (x : FVec Ideal ⟨4, ![a, b, c, d]⟩ φ) (v : (⟨0, ![]⟩ : Shape).Idx → Ideal φ)
    (h' : (⟨4, ![a, b, c, d]⟩ : Shape).ReducesTo [(3 : Fin 4)] ⟨3, ![a, b, c]⟩)
    (h : (⟨4, ![a, b, c, d]⟩ : Shape).Reduces [(3 : Fin 4)] ⟨3, ![a, b, c]⟩) (hu : 0 < (⟨0, ![]⟩ : Shape).numel)
    (p : Fin a) (q : Fin b) (r : Fin c) :
    Host.reduce (FloatOps.maximumf (F := Ideal) (φ := φ)) x v h' hu (ix3 p q r)
      = (Finset.univ : Finset (Fin d)).fold max (v ix0) (fun k => x (ix4 p q r k)) := by
  rw [Host.reduce_eq_fold_single (FloatOps.maximumf (F := Ideal) (φ := φ)) x v h' h hu, eq_ix0 (Shape.Idx.first hu)]
  exact congrArg (fun f => Finset.fold max (v ix0) f (Finset.univ : Finset (Fin d))) (funext fun k => congrArg x (lift_last4 h p q r k))

/-- A kernel's lane maximum of a matrix along its last axis, at row p: the fold of max from the accumulator word's value. -/
theorem laneMax_last2 {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (p : Fin a) :
    multiReduction .maximumf [(1 : Fin 2)] ⟨1, ![a]⟩ src acc h hφ hacc (ix1 p)
      = (Finset.univ : Finset (Fin b)).fold max (FloatOps.ofBits φ acc) (fun k => src (ix2 p k)) :=
  (Ideal.multiReduction_maximumf_single src acc h hφ hacc (ix1 p)).trans
    (congrArg (fun f => Finset.fold max (FloatOps.ofBits φ acc) f (Finset.univ : Finset (Fin b))) (funext fun k => congrArg src (lift_last2 h p k)))

end Cert.Lib.LastAxis

end
-- ==== Proof.LibFirstAxis.lean ====
/-
  Reductions of a matrix along its FIRST axis, on the extended reals, for any sizes.

  Over a result index `q` (a column), the source index with coordinate `k` on the reduced axis is `(k, q)`; so a
  kernel's sum of an `[a, b]` matrix along axis 0 from the zero word is, at column `q`, the finite sum over the rows
  `k` of the entries `(k, q)`.  With `b = 1` this is the sum of a column vector `[a, 1]` into `[1]`.
-/
import Idealize.ShloMosaic.Lib.ValueIdx
import Idealize.ShloMosaic.PureOps.Ideal.Laws

noncomputable section

open scoped BigOperators

namespace Cert.Lib.FirstAxis

open Idealize.ShloMosaic Idealize.ShloMosaic.ValueIdx

/-- The source index over column `q` with row coordinate `k` is `(k, q)`. -/
theorem lift_first2 {a b : ℕ} (h : (⟨2, ![a, b]⟩ : Shape).Reduces [(0 : Fin 2)] ⟨1, ![b]⟩) (q : Fin b)
    (k : Fin ((⟨2, ![a, b]⟩ : Shape).size 0)) : h.lift (ix1 q) k = ix2 (k : Fin a) q := by
  funext c; apply Fin.ext; rw [h.lift_val]
  match c with
  | ⟨0, _⟩ => rfl
  | ⟨1, _⟩ => rfl

/-- A kernel's sum of a matrix along its first axis from the neutral word, at column `q`: the sum over the rows. -/
theorem laneSum_first2 {a b : ℕ} {φ : FTy} (src : FVec Ideal ⟨2, ![a, b]⟩ φ) (acc : BitVec φ.bits)
    (h : (⟨2, ![a, b]⟩ : Shape).Reduces [(0 : Fin 2)] ⟨1, ![b]⟩) (hφ : FKind.Formats φ) (hacc : acc = FKind.add.neutral φ hφ)
    (q : Fin b) :
    multiReduction .add [(0 : Fin 2)] ⟨1, ![b]⟩ src acc h hφ hacc (ix1 q) = ∑ k : Fin a, src (ix2 k q) :=
  (Ideal.multiReduction_add_single src acc h hφ hacc (ix1 q)).trans
    (Finset.sum_congr rfl fun k _ => congrArg src (lift_first2 h q k))

end Cert.Lib.FirstAxis

end
-- ==== Proof.LibKeepdimsColumn.lean ====
/-
  The "keepdims" column forms of a row statistic, read at an index, for any sizes: a vector `[a]` cast to a column `[a,1]`
  and back, a column `[a,1]` broadcast along the rows to `[a,b]`, and the composite a kernel writes after a row reduction —
  the statistic cast to a column and broadcast back over its row: entry (p, q) is the statistic of row p.
-/
import Idealize.ShloMosaic.Lib.ValueIdx
import Idealize.ShloMosaic.Lib.Pipeline.Value

namespace Cert.Lib.KeepdimsColumn

open Idealize.ShloMosaic Idealize.ShloMosaic.ValueIdx

variable {α : Type}

/-- A vector as a column: entry (p, 0) is the vector's entry p. -/
theorem vecToCol_apply {a : Nat} (v : (⟨1, ![a]⟩ : Shape).Idx → α) (h : (⟨1, ![a]⟩ : Shape).ShapeCasts ⟨2, ![a, 1]⟩)
    (p : Fin a) (z : Fin 1) : shapeCast (⟨2, ![a, 1]⟩ : Shape) v h (ix2 p z) = v (ix1 p) := by
  refine shapeCast_apply v h (ix2 p z) (ix1 p) ?_
  rw [Shape.rowMajor_val_one, Shape.rowMajor_val_two]
  show p.val = p.val * 1 + z.val
  have := z.isLt; omega

/-- A column as a vector: entry p is the column's entry (p, 0). -/
theorem colToVec_apply {a : Nat} (v : (⟨2, ![a, 1]⟩ : Shape).Idx → α) (h : (⟨2, ![a, 1]⟩ : Shape).ShapeCasts ⟨1, ![a]⟩)
    (p : Fin a) : shapeCast (⟨1, ![a]⟩ : Shape) v h (ix1 p) = v (ix2 p (0 : Fin 1)) := by
  refine shapeCast_apply v h (ix1 p) (ix2 p (0 : Fin 1)) ?_
  rw [Shape.rowMajor_val_one, Shape.rowMajor_val_two]
  show p.val * 1 + 0 = p.val
  omega

/-- A column broadcast along the rows: entry (p, q) is the column's entry (p, 0). -/
theorem colToMat_apply {a b : Nat} (v : (⟨2, ![a, 1]⟩ : Shape).Idx → α) (h : (⟨2, ![a, 1]⟩ : Shape).Broadcasts ⟨2, ![a, b]⟩)
    (p : Fin a) (q : Fin b) : broadcastTo (⟨2, ![a, b]⟩ : Shape) v h (ix2 p q) = v (ix2 p (0 : Fin 1)) := by
  refine broadcastTo_apply v h (ix2 p q) (ix2 p (0 : Fin 1)) fun ax => ?_
  match ax with
  | ⟨0, _⟩ =>
    show p.val = if a = 1 then 0 else p.val
    by_cases ha : a = 1
    · rw [if_pos ha]; have := p.isLt; omega
    · rw [if_neg ha]
  | ⟨1, _⟩ => show 0 = if (1 : Nat) = 1 then 0 else q.val; rw [if_pos rfl]

/-- A row statistic put back on its row: entry (p, q) is the statistic of row p. -/
theorem statToMat_apply {a b : Nat} (v : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (q : Fin b) :
    broadcastTo (⟨2, ![a, b]⟩ : Shape) (shapeCast (⟨2, ![a, 1]⟩ : Shape) v hc) hb (ix2 p q) = v (ix1 p) :=
  (colToMat_apply _ hb p q).trans (vecToCol_apply v hc p 0)

end Cert.Lib.KeepdimsColumn
-- ==== Proof.LibLaneMin.lean ====
/-
  Minima of a matrix along one axis, on the extended reals, for any sizes.

  A `vector.multi_reduction <minimumf>` of an [a, b] matrix along its LAST axis, read at row p, is the fold of `min`
  from the accumulator word's value over the entries (p, k); along its FIRST axis, read at column q, the fold over the
  entries (k, q). (The twins, for `min`, of the row and column maxima: the reduction is a fold over the indices that
  drop to the result index, and those are the lifted indices of the reduced axis's coordinates.)
-/
import Idealize.ShloMosaic.Lib.ValueIdx
import Idealize.ShloMosaic.PureOps.Ideal.Laws
import proofs.«126631_j20203526161089_2_alg».proof.Proof.LibLastAxis
import proofs.«126631_j20203526161089_2_alg».proof.Proof.LibFirstAxis

noncomputable section
open scoped BigOperators

namespace Cert.Lib.LaneMin

open Idealize.ShloMosaic Idealize.ShloMosaic.ValueIdx

/-- A minimum along the last axis, at row `p`: the fold of `min` from the accumulator word's value over the columns. -/
theorem laneMin_last2 {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.minimumf.neutral φ hφ) (p : Fin a) :
    multiReduction .minimumf [(1 : Fin 2)] ⟨1, ![a]⟩ src acc h hφ hacc (ix1 p)
      = (Finset.univ : Finset (Fin b)).fold min (FloatOps.ofBits φ acc) (fun k => src (ix2 p k)) := by
  refine (multiReduction_minimumf_eq_fold src acc h hφ hacc (ix1 p)).trans ?_
  refine (h.fold_filter_drop_single _ _ src (ix1 p)).trans ?_
  exact congrArg (fun f => Finset.fold min (FloatOps.ofBits φ acc) f (Finset.univ : Finset (Fin b)))
    (funext fun k => congrArg src (Cert.Lib.LastAxis.lift_last2 h p k))

/-- A minimum along the first axis, at column `q`: the fold of `min` from the accumulator word's value over the rows. -/
theorem laneMin_first2 {a b : ℕ} {φ : FTy} (src : FVec Ideal ⟨2, ![a, b]⟩ φ) (acc : BitVec φ.bits)
    (h : (⟨2, ![a, b]⟩ : Shape).Reduces [(0 : Fin 2)] ⟨1, ![b]⟩) (hφ : FKind.Formats φ)
    (hacc : acc = FKind.minimumf.neutral φ hφ) (q : Fin b) :
    multiReduction .minimumf [(0 : Fin 2)] ⟨1, ![b]⟩ src acc h hφ hacc (ix1 q)
      = (Finset.univ : Finset (Fin a)).fold min (FloatOps.ofBits φ acc) (fun k => src (ix2 k q)) := by
  refine (multiReduction_minimumf_eq_fold src acc h hφ hacc (ix1 q)).trans ?_
  refine (h.fold_filter_drop_single _ _ src (ix1 q)).trans ?_
  exact congrArg (fun f => Finset.fold min (FloatOps.ofBits φ acc) f (Finset.univ : Finset (Fin a)))
    (funext fun k => congrArg src (Cert.Lib.FirstAxis.lift_first2 h q k))

end Cert.Lib.LaneMin

end
-- ==== Proof.BodyValues.lean ====
/-
  The kernel body's arithmetic, read at an index, on the extended reals.

  One grid step holds a block of 2048 points `x` and a block of 1024 points `y`, three coordinates each. Its distance
  matrix is the product of the augmented rows (x, 1, |x|²) and (-2·y, |y|², 1): entry (n, j) is the inner product of
  the two five-entry rows, which is |x|² + |y|² - 2⟨x, y⟩ written as one sum. From it the step takes
    * the minimum over the rows of each column, clamped below at zero (a row of 1024 entries);
    * the minimum over the columns of each row, clamped below at zero, folded by `min` into the running row minima.
  Sums of such rows and columns are added into entry (0, 0, 0) of the output block: the mask that selects the entry is
  set there because both of its coordinates are zero. The running minima start from plus infinity, the total from zero.
  Every statement reads one payload of the body at an index given by coordinates.
-/
import proofs.«126631_j20203526161089_2_alg».proof.Proof.Gen.KernelIdeal.Skeleton
import proofs.«126631_j20203526161089_2_alg».proof.Proof.Spec
import Idealize.ShloMosaic.Lib.ValueIdx
import Idealize.ShloMosaic.Lib.ValueLayout
import Idealize.ShloMosaic.Lib.Pipeline.Value
import Idealize.ShloMosaic.PureOps.Ideal.Laws
import proofs.«126631_j20203526161089_2_alg».proof.Proof.LibAttentionDots
import proofs.«126631_j20203526161089_2_alg».proof.Proof.LibLastAxis
import proofs.«126631_j20203526161089_2_alg».proof.Proof.LibFirstAxis
import proofs.«126631_j20203526161089_2_alg».proof.Proof.LibKeepdimsColumn
import proofs.«126631_j20203526161089_2_alg».proof.Proof.LibLaneMin

noncomputable section
open scoped BigOperators
namespace Cert.KernelIdeal.Body
open Cert.KernelIdeal Cert.KernelIdeal.Gen Cert.Spec Idealize.ShloMosaic Idealize.ShloMosaic.ValueIdx
open Cert.Lib.LaneMin

/-! ## The bit patterns the body names -/

/-- The pattern of plus infinity is the top extended real. -/
theorem ofBits_inf : Ideal.ofBits .f32 0x7F800000#32 = (⊤ : EReal) := by
  simp [Ideal.ofBits, Ideal.ieee]

/-! ## The two initial values -/

/-- The running row minima start from plus infinity. -/
theorem pay4_apply (i : S2048x1.Idx) : k0_pay4 (F := Ideal) i = ⊤ := by
  unfold k0_pay4
  rw [shapeCast_self]
  exact ofBits_inf

/-- The running total starts from zero. -/
theorem pay5_apply (i : S1x8x128.Idx) : k0_pay5 (F := Ideal) i = 0 := by
  unfold k0_pay5
  exact Ideal.ofBits_zero_f32

/-! ## The mask of the corner entry -/

/-- At entry (0, 0) both coordinates are zero, so the mask bit is set. -/
theorem pay1_zero : k0_pay1 (ix2 (0 : Fin 8) (0 : Fin 128)) = 1#1 := by
  unfold k0_pay1
  show IntOp.andi (IntOp.cmpi .eq (iota .tc S8x128 32 [0] iota_S8x128_d0_w32 (ix2 0 0)) 0#32)
      (IntOp.cmpi .eq (iota .tc S8x128 32 [1] iota_S8x128_d1_w32 (ix2 0 0)) 0#32) = 1#1
  rw [iota_single_apply, iota_single_apply]
  decide

/-! ## The two accumulations into the corner entry -/

/-- The corner entry gains the sum of the row of clamped column minima. -/
theorem pay2_apply (v27 : FVec Ideal S1x1024 .f32) (v42 : Vec Ideal S1x8x128 .f32) :
    k0_pay2 (F := Ideal) v27 v42 (ix3 0 0 0) = v42 (ix3 0 0 0) + ∑ j : Fin 1024, v27 (ix2 0 j) := by
  unfold k0_pay2
  refine (shapeCast_ab_1ab_apply _ shapeCasts_S8x128_S1x8x128 0 0 0).trans ?_
  refine (addf_apply _ _ _).trans ?_
  refine congrArg₂ (· + ·) (shapeCast_1ab_ab_apply v42 shapeCasts_S1x8x128_S8x128 0 0) ?_
  refine (select_apply _ _ _ _).trans ?_
  rw [pay1_zero, select_one]
  refine (broadcastTo_apply _ broadcasts_S1x1_S8x128 (ix2 0 0) (ix2 0 0) (fun a => ?_)).trans ?_
  · match a with
    | ⟨0, _⟩ => rfl
    | ⟨1, _⟩ => rfl
  rw [shapeCast_self]
  refine (shapeCast_a_1a_apply _ shapeCasts_S1_S1x1 0 0).trans ?_
  exact Cert.Lib.LastAxis.laneSum_last2 v27 0x00000000#32 reduces_S1x1024_S1 (.inl rfl) rfl 0

/-- The corner entry gains the sum of the column of running row minima. -/
theorem pay3_apply (v55 : Vec Ideal S2048x1 .f32) (v58 : Vec Ideal S1x8x128 .f32) :
    k0_pay3 (F := Ideal) v55 v58 (ix3 0 0 0) = v58 (ix3 0 0 0) + ∑ n : Fin 2048, v55 (ix2 n 0) := by
  unfold k0_pay3
  refine (shapeCast_ab_1ab_apply _ shapeCasts_S8x128_S1x8x128 0 0 0).trans ?_
  refine (addf_apply _ _ _).trans ?_
  refine congrArg₂ (· + ·) (shapeCast_1ab_ab_apply v58 shapeCasts_S1x8x128_S8x128 0 0) ?_
  refine (select_apply _ _ _ _).trans ?_
  rw [pay1_zero, select_one]
  refine (broadcastTo_apply _ broadcasts_S1x1_S8x128 (ix2 0 0) (ix2 0 0) (fun a => ?_)).trans ?_
  · match a with
    | ⟨0, _⟩ => rfl
    | ⟨1, _⟩ => rfl
  rw [shapeCast_self]
  refine (shapeCast_a_1a_apply _ shapeCasts_S1_S1x1 0 0).trans ?_
  exact Cert.Lib.FirstAxis.laneSum_first2 v55 0x00000000#32 reduces_S2048x1_S1 (.inl rfl) rfl 0

/-! ## The clamped column minima and the running row minima, over the distance matrix kept folded -/

/-- Column `j`: the minimum over all rows of the distance matrix, clamped below at zero. -/
theorem pay7_apply (v3 : Vec Ideal S1x2048x3 .f32) (v5 : Vec Ideal S1x1024x3 .f32) (j : Fin 1024) :
    k0_pay7 (F := Ideal) v3 v5 (ix2 0 j)
      = max (minOver fun n : Fin 2048 => k0_pay6 (F := Ideal) v3 v5 (ix2 n j)) 0 := by
  unfold k0_pay7
  generalize k0_pay6 (F := Ideal) v3 v5 = D
  refine (maximumf_apply _ _ _).trans ?_
  refine congrArg₂ max ?_ Ideal.ofBits_zero_f32
  refine (shapeCast_a_1a_apply _ shapeCasts_S1024_S1x1024 0 j).trans ?_
  refine (laneMin_first2 D 0x7F800000#32 reduces_S2048x1024_S1024 (.inl rfl) rfl j).trans ?_
  unfold minOver
  exact congrArg (fun t => Finset.fold min t (fun n : Fin 2048 => D (ix2 n j)) Finset.univ) ofBits_inf

/-- Row `n`: the stored running minimum against the minimum over this block's columns, clamped below at zero. -/
theorem pay8_apply (v3 : Vec Ideal S1x2048x3 .f32) (v5 : Vec Ideal S1x1024x3 .f32) (v28 : Vec Ideal S2048x1 .f32)
    (n : Fin 2048) :
    k0_pay8 (F := Ideal) v3 v5 v28 (ix2 n 0)
      = min (v28 (ix2 n 0)) (max (minOver fun j : Fin 1024 => k0_pay6 (F := Ideal) v3 v5 (ix2 n j)) 0) := by
  unfold k0_pay8
  generalize k0_pay6 (F := Ideal) v3 v5 = D
  rw [shapeCast_self]
  refine (minimumf_apply _ _ _).trans ?_
  refine congrArg (min (v28 (ix2 n 0))) ?_
  refine (maximumf_apply _ _ _).trans ?_
  refine congrArg₂ max ?_ Ideal.ofBits_zero_f32
  refine (Cert.Lib.KeepdimsColumn.vecToCol_apply _ shapeCasts_S2048_S2048x1 n 0).trans ?_
  refine (laneMin_last2 D 0x7F800000#32 reduces_S2048x1024_S2048 (.inl rfl) rfl n).trans ?_
  unfold minOver
  exact congrArg (fun t => Finset.fold min t (fun j : Fin 1024 => D (ix2 n j)) Finset.univ) ofBits_inf

/-! ## The bit patterns of the augmented rows -/

/-- The pattern of 1.0 is the extended real 1. -/
theorem ofBits_one : Ideal.ofBits .f32 0x3F800000#32 = (1 : EReal) := by
  simp [Ideal.ofBits, Ideal.ieee, -EReal.coe_mul]; norm_num

/-- The pattern of -2.0 is the extended real -2. -/
theorem ofBits_neg_two : Ideal.ofBits .f32 0xC0000000#32 = (-2 : EReal) := by
  simp [Ideal.ofBits, Ideal.ieee, -EReal.coe_mul]; norm_num; rfl

section Cat
variable {α : Type}

/-- Off the concatenated axis, an index of a piece with row `p` agrees with the result index of row `p`. -/
theorem cat_off {N m c : Nat} (p : Fin N) (q : Fin m) (q' : Fin c) (hr : (⟨2, ![N, c]⟩ : Shape).rank = 2)
    (b : Fin (⟨2, ![N, c]⟩ : Shape).rank) (hb : b.cast hr ≠ (1 : Fin 2)) :
    ((ix2 p q' : (⟨2, ![N, c]⟩ : Shape).Idx) b).val = ((ix2 p q : (⟨2, ![N, m]⟩ : Shape).Idx) (b.cast hr)).val := by
  match b with
  | ⟨0, _⟩ => rfl
  | ⟨1, _⟩ => exact absurd rfl hb

/-- Three matrices with 3, 1 and 1 columns side by side, read at row `p` and column `k`: the first matrix's three
    entries of the row, then the second's, then the third's. -/
theorem cat311_apply {N : Nat} (x : (⟨2, ![N, 3]⟩ : Shape).Idx → α) (y : (⟨2, ![N, 1]⟩ : Shape).Idx → α)
    (z : (⟨2, ![N, 1]⟩ : Shape).Idx → α)
    (h : Shape.Concatenates [(⟨2, ![N, 3]⟩ : Shape), ⟨2, ![N, 1]⟩, ⟨2, ![N, 1]⟩] ⟨2, ![N, 5]⟩ 1) (p : Fin N) (k : Fin 5) :
    concatenate (⟨2, ![N, 5]⟩ : Shape) 1 [⟨⟨2, ![N, 3]⟩, x⟩, ⟨⟨2, ![N, 1]⟩, y⟩, ⟨⟨2, ![N, 1]⟩, z⟩] h (ix2 p k)
      = (![x (ix2 p 0), x (ix2 p 1), x (ix2 p 2), y (ix2 p 0), z (ix2 p 0)] : Fin 5 → α) k := by
  match k with
  | ⟨0, _⟩ =>
    exact concatenate_apply_piece (t := ⟨2, ![N, 5]⟩) (1 : Fin 2) [⟨⟨2, ![N, 3]⟩, x⟩, ⟨⟨2, ![N, 1]⟩, y⟩, ⟨⟨2, ![N, 1]⟩, z⟩] h
      (ix2 p _) 0 (by simp) ⟨2, ![N, 3]⟩ x rfl rfl 0 rfl (ix2 p 0) (cat_off p _ _ rfl) rfl
  | ⟨1, _⟩ =>
    exact concatenate_apply_piece (t := ⟨2, ![N, 5]⟩) (1 : Fin 2) [⟨⟨2, ![N, 3]⟩, x⟩, ⟨⟨2, ![N, 1]⟩, y⟩, ⟨⟨2, ![N, 1]⟩, z⟩] h
      (ix2 p _) 0 (by simp) ⟨2, ![N, 3]⟩ x rfl rfl 0 rfl (ix2 p 1) (cat_off p _ _ rfl) rfl
  | ⟨2, _⟩ =>
    exact concatenate_apply_piece (t := ⟨2, ![N, 5]⟩) (1 : Fin 2) [⟨⟨2, ![N, 3]⟩, x⟩, ⟨⟨2, ![N, 1]⟩, y⟩, ⟨⟨2, ![N, 1]⟩, z⟩] h
      (ix2 p _) 0 (by simp) ⟨2, ![N, 3]⟩ x rfl rfl 0 rfl (ix2 p 2) (cat_off p _ _ rfl) rfl
  | ⟨3, _⟩ =>
    exact concatenate_apply_piece (t := ⟨2, ![N, 5]⟩) (1 : Fin 2) [⟨⟨2, ![N, 3]⟩, x⟩, ⟨⟨2, ![N, 1]⟩, y⟩, ⟨⟨2, ![N, 1]⟩, z⟩] h
      (ix2 p _) 1 (by simp) ⟨2, ![N, 1]⟩ y rfl rfl 3 rfl (ix2 p 0) (cat_off p _ _ rfl) rfl
  | ⟨4, _⟩ =>
    exact concatenate_apply_piece (t := ⟨2, ![N, 5]⟩) (1 : Fin 2) [⟨⟨2, ![N, 3]⟩, x⟩, ⟨⟨2, ![N, 1]⟩, y⟩, ⟨⟨2, ![N, 1]⟩, z⟩] h
      (ix2 p _) 2 (by simp) ⟨2, ![N, 1]⟩ z rfl rfl 4 rfl (ix2 p 0) (cat_off p _ _ rfl) rfl

/-- Two five-entry rows with equal entries are equal. -/
theorem vec5_congr {a0 a1 a2 a3 a4 b0 b1 b2 b3 b4 : α} (h0 : a0 = b0) (h1 : a1 = b1) (h2 : a2 = b2) (h3 : a3 = b3)
    (h4 : a4 = b4) : (![a0, a1, a2, a3, a4] : Fin 5 → α) = ![b0, b1, b2, b3, b4] := by
  subst h0 h1 h2 h3 h4; rfl

end Cat

/-! ## The distance matrix -/

/-- The column of squared norms of a block of points: entry (p, 0) is the sum of the squares of point `p`'s three
    coordinates. -/
theorem sqnorm_col {N : Nat} (v : FVec Ideal ⟨3, ![1, N, 3]⟩ .f32)
    (hc : (⟨3, ![1, N, 3]⟩ : Shape).ShapeCasts ⟨2, ![N, 3]⟩)
    (hr : (⟨2, ![N, 3]⟩ : Shape).Reduces [(1 : Fin 2)] ⟨1, ![N]⟩) (hk : (⟨1, ![N]⟩ : Shape).ShapeCasts ⟨2, ![N, 1]⟩)
    (hφ : FKind.Formats .f32) (hacc : (0x00000000#32 : BitVec 32) = FKind.add.neutral .f32 hφ) (p : Fin N) :
    shapeCast (⟨2, ![N, 1]⟩ : Shape)
        (multiReduction .add [(1 : Fin 2)] ⟨1, ![N]⟩
          (mulf (shapeCast (⟨2, ![N, 3]⟩ : Shape) v hc) (shapeCast (⟨2, ![N, 3]⟩ : Shape) v hc)) 0x00000000#32 hr hφ hacc)
        hk (ix2 p 0)
      = ∑ d : Fin 3, v (ix3 0 p d) * v (ix3 0 p d) := by
  refine (Cert.Lib.KeepdimsColumn.vecToCol_apply _ hk p 0).trans ?_
  refine (Cert.Lib.LastAxis.laneSum_last2 _ 0x00000000#32 hr hφ hacc p).trans ?_
  refine Finset.sum_congr rfl fun d _ => ?_
  refine (mulf_apply _ _ _).trans ?_
  exact congrArg₂ (· * ·) (shapeCast_1ab_ab_apply v hc p d) (shapeCast_1ab_ab_apply v hc p d)

/-- Entry (n, j) of the distance matrix: the inner product of the augmented rows (x n, 1, |x n|²) and
    (-2·y j, |y j|², 1). -/
theorem pay6_apply (v3 : Vec Ideal S1x2048x3 .f32) (v5 : Vec Ideal S1x1024x3 .f32) (n : Fin 2048) (j : Fin 1024) :
    k0_pay6 (F := Ideal) v3 v5 (ix2 n j)
      = bdist (fun n d => v3 (ix3 0 n d)) (fun j d => v5 (ix3 0 j d)) n j := by
  unfold k0_pay6
  refine (Cert.Lib.AttentionDots.matmul_trhs dot_S2048x5_S1024x5_S2048x1024_1_1_0_0_n_n rfl rfl rfl rfl rfl rfl
    (some .fp32) _ _ n j).trans ?_
  unfold bdist
  refine Finset.sum_congr rfl fun k _ => congrArg₂ (· * ·) ?_ ?_
  · refine (cat311_apply _ _ _ concatenates_S2048x3_S2048x1_S2048x1_S2048x5_d1 n k).trans ?_
    refine congrFun (vec5_congr ?_ ?_ ?_ ?_ ?_) k
    · exact shapeCast_1ab_ab_apply v3 shapeCasts_S1x2048x3_S2048x3 n 0
    · exact shapeCast_1ab_ab_apply v3 shapeCasts_S1x2048x3_S2048x3 n 1
    · exact shapeCast_1ab_ab_apply v3 shapeCasts_S1x2048x3_S2048x3 n 2
    · exact ofBits_one
    · exact sqnorm_col v3 shapeCasts_S1x2048x3_S2048x3 reduces_S2048x3_S2048 shapeCasts_S2048_S2048x1 (.inl rfl) rfl n
  · refine (cat311_apply _ _ _ concatenates_S1024x3_S1024x1_S1024x1_S1024x5_d1 j k).trans ?_
    refine congrFun (vec5_congr ?_ ?_ ?_ ?_ ?_) k
    · exact (mulf_apply _ _ _).trans
        (congrArg₂ (· * ·) ofBits_neg_two (shapeCast_1ab_ab_apply v5 shapeCasts_S1x1024x3_S1024x3 j 0))
    · exact (mulf_apply _ _ _).trans
        (congrArg₂ (· * ·) ofBits_neg_two (shapeCast_1ab_ab_apply v5 shapeCasts_S1x1024x3_S1024x3 j 1))
    · exact (mulf_apply _ _ _).trans
        (congrArg₂ (· * ·) ofBits_neg_two (shapeCast_1ab_ab_apply v5 shapeCasts_S1x1024x3_S1024x3 j 2))
    · exact sqnorm_col v5 shapeCasts_S1x1024x3_S1024x3 reduces_S1024x3_S1024 shapeCasts_S1024_S1024x1 (.inl rfl) rfl j
    · exact ofBits_one

end Cert.KernelIdeal.Body
end
-- ==== Proof.KernelValue.lean ====
/-
  The kernel program's result as the specification's total.

  At the ideal values the host tail is the sum of the 32 corners over 32 (`tail_apply`). The corner of batch b is the
  corner of the output block after the batch's second grid point: the zero block plus the column sums of the two
  halves plus the sum of the row minima accumulated over the two halves (`pairOut_corner`), with the blocks' entries
  those of batch b of the two arguments (`Gout_corner`). Summed over the batches this is `kerTotal`.
-/
import proofs.«126631_j20203526161089_2_alg».proof.Proof.KernelRun
import proofs.«126631_j20203526161089_2_alg».proof.Proof.BlockAt
import proofs.«126631_j20203526161089_2_alg».proof.Proof.InBlocks
import proofs.«126631_j20203526161089_2_alg».proof.Proof.BodyValues
import proofs.«126631_j20203526161089_2_alg».proof.Proof.Spec
import Idealize.ShloMosaic.PureOps.Ideal.Laws

noncomputable section

open Idealize.ShloMosaic Idealize.ShloMosaic.TcCoe Idealize.SL.Sem
open Idealize.ShloMosaic.Pipeline (Dat)

namespace Cert.KernelIdeal.KValue

open Cert.KernelIdeal Cert.KernelIdeal.Gen Cert.KernelIdeal.OutArray Cert.KernelIdeal.KRun Cert.KernelIdeal.Body Cert.Spec
open Idealize.ShloMosaic.ValueIdx

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The host tail at the ideal values: the 32 corners summed from zero, over 32. -/
theorem tail_apply (o : (⟨S32x8x128, .f32⟩ : BufTy).Contents (Elt Ideal)) :
    tail (F := Ideal) o = fun _ => finish (0 + ∑ b : Fin 32, o (ix3 b (0 : Fin 8) (0 : Fin 128))) := by
  funext i
  unfold tail finish
  show Ideal.div (Host.reduceAdd (F := Ideal) _ _ reducesTo_S32_S_d0 h_S_ i) (Ideal.ofBits .f32 0x42000000#32) = _
  refine congrArg (fun t => Ideal.div t (Ideal.ofBits .f32 0x42000000#32)) ?_
  generalize hs : shapeCast S32 (extractStridedSlice S32x1x1 ![0, 0, 0] o slices_S32x8x128_S32x1x1_0_0_0) shapeCasts_S32x1x1_S32 = s
  simp only [Host.reduceAdd, Ideal.hostReduceAdd_def]
  rw [Ideal.hostReduceAdd_total reducesTo_S32_S_d0 (fun b => b.elim0) s _ i, sum_idx1]
  refine congrArg₂ (· + ·) Ideal.ofBits_zero_f32 (Finset.sum_congr rfl fun b _ => ?_)
  subst hs
  rw [shapeCast_apply _ shapeCasts_S32x1x1_S32 (ix1 b) (ix3 b (0 : Fin 1) (0 : Fin 1))
    (by rw [Shape.rowMajor_val_three, Shape.rowMajor_val_one]; show (b.val * 1 + 0) * 1 + 0 = b.val; omega)]
  exact extractStridedSlice_apply _ o _ _ (ix3 b (0 : Fin 8) (0 : Fin 128)) (fun a => by
    match a with
    | ⟨0, _⟩ => show b.val = 0 + b.val; omega
    | ⟨1, _⟩ => rfl
    | ⟨2, _⟩ => rfl)

/-- The corner of the output block after a batch's two points, when the blocks hold batch `b` of the clouds `x`, `y`:
    the rows' block all of `x`'s batch at both points, the columns' blocks the two halves of `y`'s. -/
theorem pairOut_corner (x y : Cloud) (b : Fin 32) (X X' : Vec Ideal S1x2048x3 .f32) (Y0 Y1 : Vec Ideal S1x1024x3 .f32)
    (hX : ∀ (n : Fin 2048) (d : Fin 3), X (ix3 0 n d) = x (ix3 b n d))
    (hX' : ∀ (n : Fin 2048) (d : Fin 3), X' (ix3 0 n d) = x (ix3 b n d))
    (hY0 : ∀ (j : Fin 1024) (d : Fin 3), Y0 (ix3 0 j d) = y (ix3 b (lo j) d))
    (hY1 : ∀ (j : Fin 1024) (d : Fin 3), Y1 (ix3 0 j d) = y (ix3 b (hi j) d)) :
    Block.pairOut X X' Y0 Y1 (ix3 (0 : Fin 1) (0 : Fin 8) (0 : Fin 128)) = perBatch x y b := by
  have eX : (fun (n : Fin 2048) (d : Fin 3) => X (ix3 0 n d)) = fun n d => x (ix3 b n d) :=
    funext fun n => funext fun d => hX n d
  have eX' : (fun (n : Fin 2048) (d : Fin 3) => X' (ix3 0 n d)) = fun n d => x (ix3 b n d) :=
    funext fun n => funext fun d => hX' n d
  have eY0 : (fun (j : Fin 1024) (d : Fin 3) => Y0 (ix3 0 j d)) = fun j d => y (ix3 b (lo j) d) :=
    funext fun j => funext fun d => hY0 j d
  have eY1 : (fun (j : Fin 1024) (d : Fin 3) => Y1 (ix3 0 j d)) = fun j d => y (ix3 b (hi j) d) :=
    funext fun j => funext fun d => hY1 j d
  have d0 : ∀ (n : Fin 2048) (j : Fin 1024), k0_pay6 (F := Ideal) X' Y0 (ix2 n j) = distK x y b n (lo j) := fun n j => by
    rw [pay6_apply, eX', eY0]; rfl
  have d1 : ∀ (n : Fin 2048) (j : Fin 1024), k0_pay6 (F := Ideal) X Y1 (ix2 n j) = distK x y b n (hi j) := fun n j => by
    rw [pay6_apply, eX, eY1]; rfl
  unfold Block.pairOut perBatch colPart rowPart
  rw [pay3_apply, pay2_apply, pay2_apply, pay5_apply]
  simp only [pay8_apply, pay7_apply, pay4_apply, d0, d1]

variable (m : (ℓ : Loc nD τ sig) → Buf (Elt Ideal) ℓ)

/-- The corner of batch `b` in the output array is that batch's contribution. -/
theorem Gout_corner (c : Dev nD) (b : Fin 32) :
    Gout m c (ix3 b (0 : Fin 8) (0 : Fin 128))
      = perBatch (m ((c : Thread nD τ).loc main_arg0)) (m ((c : Thread nD τ).loc main_arg1)) b := by
  have h1 : (oddPt b).val % 2 = 1 := by show (2 * b.val + 1) % 2 = 1; omega
  have hb : (⟨(oddPt b).val / 2, InBlocks.half_lt (oddPt b)⟩ : Fin 32) = b :=
    Fin.ext (by show (2 * b.val + 1) / 2 = b.val; omega)
  have hb' : (⟨(Block.prev (oddPt b)).val / 2, InBlocks.half_lt (Block.prev (oddPt b))⟩ : Fin 32) = b :=
    Fin.ext (by show (2 * b.val + 1 - 1) / 2 = b.val; omega)
  unfold Gout
  refine (outs_congr m c (n' := (oddPt b).val) rfl _ (oddPt b).isLt _ (ix3 (0 : Fin 1) (0 : Fin 8) (0 : Fin 128)) rfl).trans ?_
  rw [Block.outsAt_odd m c (oddPt b) h1]
  refine pairOut_corner _ _ b _ _ _ _ (fun n d => ?_) (fun n d => ?_) (fun j d => ?_) (fun j d => ?_)
  · exact (InBlocks.rows_apply m c (oddPt b) n d).trans (by rw [hb])
  · exact (InBlocks.rows_apply m c (Block.prev (oddPt b)) n d).trans (by rw [hb'])
  · refine (InBlocks.cols_apply m c (Block.prev (oddPt b)) j d).trans ?_
    rw [hb']
    exact congrArg (fun q => m ((c : Thread nD τ).loc main_arg1) (ix3 b q d))
      (Fin.ext (by show 1024 * ((2 * b.val + 1 - 1) % 2) + j.val = j.val; omega))
  · refine (InBlocks.cols_apply m c (oddPt b) j d).trans ?_
    rw [hb]
    exact congrArg (fun q => m ((c : Thread nD τ).loc main_arg1) (ix3 b q d))
      (Fin.ext (by show 1024 * ((2 * b.val + 1) % 2) + j.val = 1024 + j.val; omega))

/-- The kernel program's result is the specification's kernel-side total over 32. -/
theorem kernel_value (c : Dev nD) :
    tail (F := Ideal) (Gout m c)
      = fun _ => finish (kerTotal (m ((c : Thread nD τ).loc main_arg0)) (m ((c : Thread nD τ).loc main_arg1))) := by
  rw [tail_apply]
  funext _
  unfold kerTotal
  rw [zero_add]
  exact congrArg finish (Finset.sum_congr rfl fun b _ => Gout_corner m c b)

end Cert.KernelIdeal.KValue
end
-- ==== Proof.RefSide.lean ====
/-
  The reference side of the value claim. The reference computes, for two clouds `x`, `y` of 32 batches of 2048 points
  in three coordinates, the array D(b, n, m) = max (|x(b,n)|² + |y(b,m)|² - 2·⟨x(b,n), y(b,m)⟩) 0 of clamped squared
  distances, takes its minimum over `n` (the middle axis) and over `m` (the last axis), adds the two [32, 2048] arrays,
  sums every entry and divides by the f32 constant 32. Read at the extended reals, entry by entry:
    * the squared norms and the batched contraction are the three-term sums `sqn` and `dotp` of the specification;
    * the constants 0, 2 and +∞ are the patterns 0x00000000, 0x40000000 and 0x7F800000;
    * a minimum reduction along one axis is the fold of `min` from +∞ over that axis's coordinates;
    * the total over the [32, 2048] index set is the double sum over batches and positions.
  So the result is `finish (refTotal x y)`.
-/
import proofs.«126631_j20203526161089_2_alg».proof.Defs
import proofs.«126631_j20203526161089_2_alg».proof.Proof.Gen.ReferenceIdeal.Run
import proofs.«126631_j20203526161089_2_alg».proof.Proof.Gen.ReferenceIdeal.Read
import proofs.«126631_j20203526161089_2_alg».proof.Proof.Spec
import Idealize.ShloMosaic.Lib.ValueIdx
import Idealize.ShloMosaic.PureOps.Reduce
import Idealize.ShloMosaic.PureOps.Ideal.Laws

noncomputable section

open scoped BigOperators

namespace Cert.RefSide

open Cert.ReferenceIdeal Cert.ReferenceIdeal.Gen Cert.ReferenceIdeal.Read Idealize.ShloMosaic Idealize.ShloMosaic.ValueIdx
open Cert.Spec

/-- The f32 pattern 0x7F800000 is +∞. -/
theorem ofBits_inf_f32 : Ideal.ofBits .f32 0x7F800000#32 = ⊤ := by simp [Ideal.ofBits, Ideal.ieee]

/-- The f32 pattern 0x40000000 is 2: exponent field 128, zero fraction, so 2^23 · 2^(128 - 127 - 23). -/
theorem ofBits_two_f32 : Ideal.ofBits .f32 0x40000000#32 = 2 := by
  simp [Ideal.ofBits, Ideal.ieee]
  rw [← EReal.coe_mul]
  norm_num
  rfl

/-- The sum of squares of the first cloud's point `n` of batch `b`. -/
theorem v1_at (x : (⟨S32x2048x3, .f32⟩ : BufTy).Contents (Elt Ideal)) (b : Fin 32) (n : Fin 2048) :
    val_main_v1 (F := Ideal) x (ix2 b n) = sqn x b n := by
  rw [val_main_v1_apply, val_main_cst_apply, Ideal.ofBits_def, Ideal.ofBits_zero_f32, zero_add]
  unfold sqn
  refine Finset.sum_congr rfl fun k _ => ?_
  rw [val_main_v0_apply, Ideal.mulf_def]
  have e : idx_main_v1 (ix2 b n) k = ix3 b n k :=
    funext fun a => Fin.ext (by match a with | ⟨0, _⟩ => rfl | ⟨1, _⟩ => rfl | ⟨2, _⟩ => rfl)
  rw [e]

/-- The sum of squares of the second cloud's point `m` of batch `b`. -/
theorem v3_at (y : (⟨S32x2048x3, .f32⟩ : BufTy).Contents (Elt Ideal)) (b : Fin 32) (m : Fin 2048) :
    val_main_v3 (F := Ideal) y (ix2 b m) = sqn y b m := by
  rw [val_main_v3_apply, val_main_cst_0_apply, Ideal.ofBits_def, Ideal.ofBits_zero_f32, zero_add]
  unfold sqn
  refine Finset.sum_congr rfl fun k _ => ?_
  rw [val_main_v2_apply, Ideal.mulf_def]
  have e : idx_main_v3 (ix2 b m) k = ix3 b m k :=
    funext fun a => Fin.ext (by match a with | ⟨0, _⟩ => rfl | ⟨1, _⟩ => rfl | ⟨2, _⟩ => rfl)
  rw [e]

/-- The batched contraction at (b, n, m) is the inner product of point `n` of `x` and point `m` of `y`. -/
theorem v4_at (x y : (⟨S32x2048x3, .f32⟩ : BufTy).Contents (Elt Ideal)) (b : Fin 32) (n m : Fin 2048) :
    val_main_v4 (F := Ideal) x y (ix3 b n m) = dotp x y b n m := by
  rw [val_main_v4_apply]
  unfold dotp
  refine Finset.sum_congr rfl fun k _ => ?_
  have el : lidx_main_v4 (ix3 b n m) k = ix3 b n k :=
    funext fun a => Fin.ext (by match a with | ⟨0, _⟩ => rfl | ⟨1, _⟩ => rfl | ⟨2, _⟩ => rfl)
  have er : ridx_main_v4 (ix3 b n m) k = ix3 b m k :=
    funext fun a => Fin.ext (by match a with | ⟨0, _⟩ => rfl | ⟨1, _⟩ => rfl | ⟨2, _⟩ => rfl)
  rw [el, er]

/-- The first squared norm broadcast along the last axis. -/
theorem v7_at (x : (⟨S32x2048x3, .f32⟩ : BufTy).Contents (Elt Ideal)) (b : Fin 32) (n m : Fin 2048) :
    val_main_v7 (F := Ideal) x (ix3 b n m) = sqn x b n := by
  rw [val_main_v7_apply, val_main_v5_apply]
  have e : idx_main_v5 (idx_main_v7 (ix3 b n m)) = ix2 b n :=
    funext fun a => Fin.ext (by match a with | ⟨0, _⟩ => rfl | ⟨1, _⟩ => rfl)
  rw [e, v1_at]

/-- The second squared norm broadcast along the middle axis. -/
theorem v8_at (y : (⟨S32x2048x3, .f32⟩ : BufTy).Contents (Elt Ideal)) (b : Fin 32) (n m : Fin 2048) :
    val_main_v8 (F := Ideal) y (ix3 b n m) = sqn y b m := by
  rw [val_main_v8_apply, val_main_v6_apply]
  have e : idx_main_v6 (idx_main_v8 (ix3 b n m)) = ix2 b m :=
    funext fun a => Fin.ext (by match a with | ⟨0, _⟩ => rfl | ⟨1, _⟩ => rfl)
  rw [e, v3_at]

/-- The clamped squared distance at (b, n, m). -/
theorem v14_at (x y : (⟨S32x2048x3, .f32⟩ : BufTy).Contents (Elt Ideal)) (b : Fin 32) (n m : Fin 2048) :
    val_main_v14 (F := Ideal) x y (ix3 b n m) = distR x y b n m := by
  rw [val_main_v14_apply, val_main_v12_apply, val_main_v9_apply, val_main_v11_apply, val_main_v10_apply,
    val_main_v13_apply, val_main_cst_1_apply, val_main_cst_2_apply, v7_at, v8_at, v4_at]
  simp only [Ideal.ofBits_def, Ideal.maximumf_def, Ideal.subf_def, Ideal.addf_def, Ideal.mulf_def,
    Ideal.ofBits_zero_f32, ofBits_two_f32]
  rfl

/-- A minimum reduction of a [32, 2048, 2048] array along its middle axis, read at (b, j): the fold of `min` from
    the initial value over the middle coordinate `n` of the entries (b, n, j). -/
theorem reduce_min_mid (v : S32x2048x2048.Idx → EReal) (init : S_.Idx → EReal) (b : Fin 32) (j : Fin 2048) :
    Host.reduce (FloatOps.minimumf (F := Ideal) (φ := .f32)) v init reducesTo_S32x2048x2048_S32x2048_d1 h_S_ (ix2 b j)
      = (Finset.univ : Finset (Fin 2048)).fold min (init (Shape.Idx.first h_S_)) (fun n => v (ix3 b n j)) := by
  have h : Shape.Reduces S32x2048x2048 [1] S32x2048 := by decide
  rw [Host.reduce_eq_fold_single _ v init reducesTo_S32x2048x2048_S32x2048_d1 h h_S_ (ix2 b j)]
  have e : (v ∘ h.lift (ix2 b j)) = fun n : Fin 2048 => v (ix3 b n j) :=
    funext fun n => congrArg v (funext fun c => Fin.ext (by
      match c with | ⟨0, _⟩ => rfl | ⟨1, _⟩ => rfl | ⟨2, _⟩ => rfl))
  rw [e]
  rfl

/-- The same along the last axis, read at (b, j): the fold of `min` over the last coordinate `m` of the entries (b, j, m). -/
theorem reduce_min_last (v : S32x2048x2048.Idx → EReal) (init : S_.Idx → EReal) (b : Fin 32) (j : Fin 2048) :
    Host.reduce (FloatOps.minimumf (F := Ideal) (φ := .f32)) v init reducesTo_S32x2048x2048_S32x2048_d2 h_S_ (ix2 b j)
      = (Finset.univ : Finset (Fin 2048)).fold min (init (Shape.Idx.first h_S_)) (fun m => v (ix3 b j m)) := by
  have h : Shape.Reduces S32x2048x2048 [2] S32x2048 := by decide
  rw [Host.reduce_eq_fold_single _ v init reducesTo_S32x2048x2048_S32x2048_d2 h h_S_ (ix2 b j)]
  have e : (v ∘ h.lift (ix2 b j)) = fun m : Fin 2048 => v (ix3 b j m) :=
    funext fun m => congrArg v (funext fun c => Fin.ext (by
      match c with | ⟨0, _⟩ => rfl | ⟨1, _⟩ => rfl | ⟨2, _⟩ => rfl))
  rw [e]
  rfl

/-- The minimum over the first cloud's points `n` of the clamped squared distance to point `j` of the second. -/
theorem v15_at (x y : (⟨S32x2048x3, .f32⟩ : BufTy).Contents (Elt Ideal)) (b : Fin 32) (j : Fin 2048) :
    val_main_v15 (F := Ideal) x y (ix2 b j) = minOver (fun n => distR x y b n j) := by
  unfold val_main_v15
  rw [reduce_min_mid, val_main_cst_3_apply, Ideal.ofBits_def, ofBits_inf_f32]
  unfold minOver
  exact congrArg (fun f => Finset.fold min ⊤ f Finset.univ) (funext fun n => v14_at x y b n j)

/-- The minimum over the second cloud's points `m` of the clamped squared distance from point `j` of the first. -/
theorem v16_at (x y : (⟨S32x2048x3, .f32⟩ : BufTy).Contents (Elt Ideal)) (b : Fin 32) (j : Fin 2048) :
    val_main_v16 (F := Ideal) x y (ix2 b j) = minOver (fun m => distR x y b j m) := by
  unfold val_main_v16
  rw [reduce_min_last, val_main_cst_4_apply, Ideal.ofBits_def, ofBits_inf_f32]
  unfold minOver
  exact congrArg (fun f => Finset.fold min ⊤ f Finset.univ) (funext fun m => v14_at x y b j m)

/-- The reference program's result, read at the ideal values, is the specification's total, divided by the batch count. -/
theorem ref_value (x y : (⟨Cert.ReferenceIdeal.S32x2048x3, .f32⟩ : BufTy).Contents (Elt Ideal)) :
    Cert.ReferenceIdeal.Read.val_main_v19 (F := Ideal) x y = fun _ => Cert.Spec.finish (Cert.Spec.refTotal x y) := by
  funext i
  rw [val_main_v19_apply, val_main_v18_apply, val_main_cst_5_apply, val_main_cst_6_apply, Ideal.hostDivf_def,
    Ideal.ofBits_def, Ideal.ofBits_def, Ideal.ofBits_zero_f32, zero_add, sum_idx2]
  unfold finish refTotal
  refine congrArg (fun t => Ideal.div t (Ideal.ofBits .f32 0x42000000#32)) ?_
  refine Finset.sum_congr rfl fun b _ => Finset.sum_congr rfl fun j _ => ?_
  rw [val_main_v17_apply, Ideal.addf_def, v15_at, v16_at]

end Cert.RefSide

end
-- ==== Proof.Totals.lean ====
/-
  The two totals of `Spec.lean` are equal when every coordinate is a real number.

  Four facts, none of which mentions a program:
    * with real coordinates, the inner product of the augmented rows is |x|² + |y|² - 2⟨x, y⟩ (`distK_eq`);
    * clamping below at zero commutes with a finite minimum (`max_minOver_zero`);
    * a minimum, or a sum, over 2048 positions is the minimum, or the sum, of the two halves
      (`minOver_split`, `sum_split`);
    * sums over extended reals can be regrouped freely, addition being commutative and associative there.
-/
import proofs.«126631_j20203526161089_2_alg».proof.Proof.Spec

noncomputable section

open scoped BigOperators

namespace Cert.Spec

open Idealize.ShloMosaic Idealize.ShloMosaic.ValueIdx

/-! ### The augmented inner product is the expanded squared distance -/

/-- The identity on real numbers, read in the extended reals. -/
theorem aug_real (a0 a1 a2 b0 b1 b2 : ℝ) :
    (a0 : EReal) * (-2 * (b0 : EReal)) + (a1 : EReal) * (-2 * (b1 : EReal)) + (a2 : EReal) * (-2 * (b2 : EReal))
        + 1 * ((b0 : EReal) * b0 + (b1 : EReal) * b1 + (b2 : EReal) * b2)
        + ((a0 : EReal) * a0 + (a1 : EReal) * a1 + (a2 : EReal) * a2) * 1
      = ((a0 : EReal) * a0 + (a1 : EReal) * a1 + (a2 : EReal) * a2)
        + ((b0 : EReal) * b0 + (b1 : EReal) * b1 + (b2 : EReal) * b2)
        - 2 * ((a0 : EReal) * b0 + (a1 : EReal) * b1 + (a2 : EReal) * b2) := by
  have h2 : (2 : EReal) = ((2 : ℝ) : EReal) := rfl
  have h1 : (1 : EReal) = ((1 : ℝ) : EReal) := rfl
  rw [h2, h1]
  simp only [← EReal.coe_neg, ← EReal.coe_mul, ← EReal.coe_add, ← EReal.coe_sub]
  congr 1
  ring

/-- With real coordinates the augmented inner product is |x|² + |y|² - 2⟨x, y⟩. -/
theorem distK_eq (x y : Cloud) (hx : ∀ i, ∃ r : ℝ, x i = (r : EReal)) (hy : ∀ i, ∃ r : ℝ, y i = (r : EReal))
    (b : Fin 32) (n m : Fin 2048) :
    distK x y b n m = sqn x b n + sqn y b m - 2 * dotp x y b n m := by
  choose xr hxr using hx
  choose yr hyr using hy
  unfold distK bdist sqn dotp
  simp only [Fin.sum_univ_five, Fin.sum_univ_three, hxr, hyr]
  exact aug_real _ _ _ _ _ _

/-! ### Clamping commutes with the minimum -/

/-- Clamping a finite minimum below at zero is the minimum of the clamped entries. -/
theorem max_minOver_zero {n : Nat} (f : Fin n → EReal) :
    max (minOver f) 0 = minOver (fun i => max (f i) 0) := by
  unfold minOver
  have h := Finset.fold_hom (op := (min : EReal → EReal → EReal)) (op' := (min : EReal → EReal → EReal))
    (m := fun t : EReal => max t 0) (b := (⊤ : EReal)) (s := (Finset.univ : Finset (Fin n))) (f := f)
    (fun a b => max_min_distrib_right a b 0)
  simp only [max_top_left] at h
  exact h.symm

/-! ### Splitting the 2048 positions into two halves -/

/-- A bound below a finite minimum is a bound below every entry. -/
theorem le_minOver_iff {n : Nat} (f : Fin n → EReal) (c : EReal) : c ≤ minOver f ↔ ∀ i, c ≤ f i := by
  unfold minOver
  rw [Finset.le_fold_min]
  simp

/-- Every position is in the first half or in the second. -/
theorem lo_or_hi (i : Fin 2048) : (∃ j, i = lo j) ∨ (∃ j, i = hi j) := by
  by_cases h : i.val < 1024
  · exact Or.inl ⟨⟨i.val, h⟩, Fin.ext rfl⟩
  · refine Or.inr ⟨⟨i.val - 1024, by omega⟩, Fin.ext ?_⟩
    simp only [hi]
    omega

/-- The minimum over all positions is the minimum of the minima over the two halves. -/
theorem minOver_split (g : Fin 2048 → EReal) :
    minOver g = min (minOver fun j => g (lo j)) (minOver fun j => g (hi j)) := by
  refine eq_of_forall_le_iff fun c => ?_
  rw [le_min_iff, le_minOver_iff, le_minOver_iff, le_minOver_iff]
  constructor
  · intro h
    exact ⟨fun j => h (lo j), fun j => h (hi j)⟩
  · rintro ⟨h1, h2⟩ i
    rcases lo_or_hi i with ⟨j, rfl⟩ | ⟨j, rfl⟩
    · exact h1 j
    · exact h2 j

/-- The sum over all positions is the sum over the first half plus the sum over the second. -/
theorem sum_split (g : Fin 2048 → EReal) :
    ∑ m : Fin 2048, g m = ∑ j : Fin 1024, g (lo j) + ∑ j : Fin 1024, g (hi j) := by
  have h := Fin.sum_univ_add (a := 1024) (b := 1024) (f := g)
  have hlo : ∀ j : Fin 1024, (Fin.castAdd 1024 j : Fin (1024 + 1024)) = lo j := fun j => Fin.ext rfl
  have hhi : ∀ j : Fin 1024, (Fin.natAdd 1024 j : Fin (1024 + 1024)) = hi j := fun j => Fin.ext rfl
  simp only [hlo, hhi] at h
  exact h

/-! ### The pieces of one batch -/

/-- A clamped column minimum is the minimum of the clamped distances. -/
theorem colPart_eq (x y : Cloud) (hx : ∀ i, ∃ r : ℝ, x i = (r : EReal)) (hy : ∀ i, ∃ r : ℝ, y i = (r : EReal))
    (b : Fin 32) (m : Fin 2048) :
    colPart x y b m = minOver (fun n => distR x y b n m) := by
  unfold colPart distR
  rw [max_minOver_zero]
  congr 1
  funext n
  rw [distK_eq x y hx hy]

/-- A clamped row minimum over one half is the minimum of the clamped distances over that half. -/
theorem rowPart_eq (x y : Cloud) (hx : ∀ i, ∃ r : ℝ, x i = (r : EReal)) (hy : ∀ i, ∃ r : ℝ, y i = (r : EReal))
    (b : Fin 32) (n : Fin 2048) (half : Fin 1024 → Fin 2048) :
    rowPart x y b n half = minOver (fun j => distR x y b n (half j)) := by
  unfold rowPart distR
  rw [max_minOver_zero]
  congr 1
  funext j
  rw [distK_eq x y hx hy]

/-- One batch's contribution, regrouped position by position. -/
theorem perBatch_eq (x y : Cloud) (hx : ∀ i, ∃ r : ℝ, x i = (r : EReal)) (hy : ∀ i, ∃ r : ℝ, y i = (r : EReal))
    (b : Fin 32) :
    perBatch x y b
      = ∑ j : Fin 2048, (minOver (fun n => distR x y b n j) + minOver (fun m => distR x y b j m)) := by
  unfold perBatch
  rw [Finset.sum_add_distrib, zero_add, sum_split (fun j => minOver (fun n => distR x y b n j))]
  congr 1
  · congr 1
    · exact Finset.sum_congr rfl fun j _ => colPart_eq x y hx hy b (lo j)
    · exact Finset.sum_congr rfl fun j _ => colPart_eq x y hx hy b (hi j)
  · refine Finset.sum_congr rfl fun n _ => ?_
    rw [min_top_left, rowPart_eq x y hx hy, rowPart_eq x y hx hy]
    exact (minOver_split (fun m => distR x y b n m)).symm

/-- The two totals are equal when every coordinate is a real number. -/
theorem kerTotal_eq_refTotal (x y : Cloud) (hx : ∀ i, ∃ r : ℝ, x i = (r : EReal)) (hy : ∀ i, ∃ r : ℝ, y i = (r : EReal)) :
    kerTotal x y = refTotal x y := by
  unfold kerTotal refTotal
  exact Finset.sum_congr rfl fun b _ => perBatch_eq x y hx hy b

end Cert.Spec

end
-- ==== Proof.Finite.lean ====
/-
  From the precondition to real coordinates: the precondition says that the conjunction, over both inputs, of
  "|v| < +∞ at every entry" is true; an extended real whose absolute value is below +∞ is a real number.
-/
import proofs.«126631_j20203526161089_2_alg».proof.Defs
import proofs.«126631_j20203526161089_2_alg».proof.Proof.Gen.Pre_finite_inputs
import Idealize.ShloMosaic.Lib.ReduceAll
import Idealize.ShloMosaic.Lib.ValueIdx
import Idealize.ShloMosaic.PureOps.Ideal.Laws

noncomputable section

open Idealize.ShloMosaic Idealize.ShloMosaic.TcCoe Idealize.SL.Sem

namespace Cert.Finite

open Cert.Pre_finite_inputs Idealize.ShloMosaic.ValueIdx

instance : Subsingleton S_.Idx := ⟨fun a b => funext fun d => d.elim0⟩

/-- The f32 pattern of +∞ is the top element. -/
theorem ofBits_inf : Ideal.ofBits .f32 0x7F800000#32 = ⊤ := by simp [Ideal.ofBits, Ideal.ieee]

/-- An extended real whose absolute value is below +∞ is a real number. -/
theorem real_of_abs_lt (v : EReal) (h : max v (-v) < ⊤) : ∃ r : ℝ, v = (r : EReal) := by
  induction v using EReal.rec with
  | bot => simp at h
  | coe r => exact ⟨r, rfl⟩
  | top => simp at h

/-- Under the precondition every coordinate of both inputs is a real number. -/
theorem real_of_pre (x y : FVec Ideal S32x2048x3 .f32)
    (h : Cert.Pre_finite_inputs.fn (F := Ideal) x y = fun _ => 1#1) :
    (∀ i, ∃ r : ℝ, x i = (r : EReal)) ∧ (∀ i, ∃ r : ℝ, y i = (r : EReal)) := by
  have h0 := congrFun h ix0
  dsimp only [Cert.Pre_finite_inputs.fn] at h0
  obtain ⟨hx, hy⟩ := IntOp.andi_eq_one.1 h0
  refine ⟨fun i => ?_, fun i => ?_⟩
  · have e := Host.reduce_andi_all _ _ _ _ _ hx i
    have e' : Ideal.cmp .olt (max (x i) (-(x i))) (Ideal.ofBits .f32 0x7F800000#32) = 1#1 := e
    rw [ofBits_inf] at e'
    have hlt : max (x i) (-(x i)) < ⊤ := by
      by_contra hn
      simp [Ideal.cmp, hn] at e'
    exact real_of_abs_lt _ hlt
  · have e := Host.reduce_andi_all _ _ _ _ _ hy i
    have e' : Ideal.cmp .olt (max (y i) (-(y i))) (Ideal.ofBits .f32 0x7F800000#32) = 1#1 := e
    rw [ofBits_inf] at e'
    have hlt : max (y i) (-(y i)) < ⊤ := by
      by_contra hn
      simp [Ideal.cmp, hn] at e'
    exact real_of_abs_lt _ hlt

end Cert.Finite
end
-- ==== Proof.lean ====
/-
  The certificate's claim: a batched nearest-neighbour (Chamfer-type) loss computed two ways.

  Both programs take two clouds x, y of 32 batches of 2048 points in three coordinates and return one number: the sum,
  over batches and positions j, of the squared distance from y's point j to its nearest point of x plus the squared
  distance from x's point j to its nearest point of y, divided by 32. One program forms |x|² + |y|² - 2⟨x, y⟩, clamps
  it at zero and takes the minima of the whole distance array. The other works batch by batch and half by half of
  the columns: it gets the same distances as inner products of augmented rows (x, 1, |x|²)·(-2y, |y|², 1), takes the
  minima first and clamps them afterwards (clamping is monotone, so it commutes with a minimum), keeps running row
  minima across the two halves, and adds the column sums and the final row sums into one corner per batch.

  The frames of the two kernel programs are the generated frame runs; the reference's frame is its generated run with
  the result dropped; the idealization rewrote nothing. For the value claim each side's result is read as the common
  last step `finish` of a total (`KRun.run` with `KValue.kernel_value`; the generated run with `RefSide.ref_value`),
  and the two totals agree when every coordinate is real (`Spec.kerTotal_eq_refTotal`), which the precondition gives
  (`Finite.real_of_pre`). Finiteness is needed only for the distance identity: 0·∞ and ∞ - ∞ would break the
  expansion of the augmented inner product.
-/
import proofs.«126631_j20203526161089_2_alg».proof.Defs
import proofs.«126631_j20203526161089_2_alg».proof.Proof.Gen.Kernel
import proofs.«126631_j20203526161089_2_alg».proof.Proof.Gen.Kernel.Frame
import proofs.«126631_j20203526161089_2_alg».proof.Proof.Gen.KernelIdeal
import proofs.«126631_j20203526161089_2_alg».proof.Proof.Gen.KernelIdeal.Frame
import proofs.«126631_j20203526161089_2_alg».proof.Proof.Gen.ReferenceIdeal
import proofs.«126631_j20203526161089_2_alg».proof.Proof.Gen.ReferenceIdeal.Run
import proofs.«126631_j20203526161089_2_alg».proof.Proof.Gen.Pre_finite_inputs
import proofs.«126631_j20203526161089_2_alg».proof.Proof.KernelRun
import proofs.«126631_j20203526161089_2_alg».proof.Proof.KernelValue
import proofs.«126631_j20203526161089_2_alg».proof.Proof.RefSide
import proofs.«126631_j20203526161089_2_alg».proof.Proof.Totals
import proofs.«126631_j20203526161089_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end at `finish` of the reference's total of the kernel's arguments. -/
theorem algebraic : Cert.algebraic_KernelIdeal_ReferenceIdeal := by
  intro m ρ m' ρ' hpre hagree
  refine ⟨fun c _ => Cert.Spec.finish (Cert.Spec.refTotal
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))), ?_, ?_⟩
  · refine (θ_run Cert.KernelIdeal.defs _ _).mono (fun r h c => ⟨(h c).1.trans ?_, (h c).2⟩)
      (Cert.KernelIdeal.KRun.run (F := Ideal) m ρ)
    obtain ⟨hx, hy⟩ := Cert.Finite.real_of_pre _ _ (hpre c)
    rw [Cert.KernelIdeal.KValue.kernel_value, Cert.Spec.kerTotal_eq_refTotal _ _ hx hy]
    rfl
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v19_eq, Cert.RefSide.ref_value, (hagree c).1, (hagree c).2]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
